-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S50x4 : Shape := ⟨2, ![50, 4]⟩
abbrev S50 : Shape := ⟨1, ![50]⟩
abbrev S2x50 : Shape := ⟨2, ![2, 50]⟩
abbrev S2 : Shape := ⟨1, ![2]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S50x4 : S_.BroadcastsInDim S50x4 (![] : Fin 0 → Fin S50x4.rank)
  reducesTo_S50x4_S_d0_1 : S50x4.ReducesTo [0, 1] S_
  bcast_S_S50 : S_.BroadcastsInDim S50 (![] : Fin 0 → Fin S50.rank)
  reducesTo_S50_S_d0 : S50.ReducesTo [0] S_
  bcast_S_S2x50 : S_.BroadcastsInDim S2x50 (![] : Fin 0 → Fin S2x50.rank)
  reducesTo_S2x50_S_d0_1 : S2x50.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x50 1) : IVec S_ 1 :=
  let main_c_5 : IVec S_ 1 := constantI S_ 1 1#1
  let main_v17 : IVec S_ 1 := (fun x v => Host.reduce IntOp.andi x v reducesTo_S2x50_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S2097152x4 .f32) (main_arg1 : FVec F S50x4 .f32) (main_arg2 : FVec F S50 .f32) (main_arg3 : FVec F S2x50 .f32) (main_arg4 : FVec F S2 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S50x4 .f32 := Host.absf main_arg1
  let main_cst_0 : FVec F S_ .f32 := constant S_ .f32 0x7F800000#32
  let main_v5 : FVec F S50x4 .f32 := broadcastInDim S50x4 ![] bcast_S_S50x4 main_cst_0
  let main_v6 : IVec S50x4 1 := cmpf .olt main_v4 main_v5
  let main_c_1 : IVec S_ 1 := constantI S_ 1 1#1
  let main_v7 : IVec S_ 1 := (fun x v => Host.reduce IntOp.andi x v reducesTo_S50x4_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S2x50 .f32 := Host.absf main_arg3
  let main_cst_4 : FVec F S_ .f32 := constant S_ .f32 0x7F800000#32
  let main_v15 : FVec F S2x50 .f32 := broadcastInDim S2x50 ![] bcast_S_S2x50 main_cst_4
  let main_v16 : IVec S2x50 1 := cmpf .olt main_v14 main_v15
  fn_part1 (F := F) main_arg4 main_v13 main_v16
-- ==== Kernel.lean ====
abbrev S2097152x4 : Shape := ⟨2, ![2097152, 4]⟩
abbrev S50x4 : Shape := ⟨2, ![50, 4]⟩
abbrev S50 : Shape := ⟨1, ![50]⟩
abbrev S2x50 : Shape := ⟨2, ![2, 50]⟩
abbrev S2 : Shape := ⟨1, ![2]⟩
abbrev S0 : Shape := ⟨1, ![0]⟩
abbrev S_ : Shape := ⟨0, ![]⟩
abbrev S56x4 : Shape := ⟨2, ![56, 4]⟩
abbrev S1 : Shape := ⟨1, ![1]⟩
abbrev S56x1 : Shape := ⟨2, ![56, 1]⟩
abbrev S2x56 : Shape := ⟨2, ![2, 56]⟩
abbrev S2x1 : Shape := ⟨2, ![2, 1]⟩
abbrev S4x2097152 : Shape := ⟨2, ![4, 2097152]⟩
abbrev S2x2097152 : Shape := ⟨2, ![2, 2097152]⟩
abbrev S2097152x2 : Shape := ⟨2, ![2097152, 2]⟩
abbrev S4x32768 : Shape := ⟨2, ![4, 32768]⟩
abbrev S2x32768 : Shape := ⟨2, ![2, 32768]⟩
abbrev S56x32768 : Shape := ⟨2, ![56, 32768]⟩

abbrev nBuf : Space → Nat
  | .hbm => 31
  | .vmem => 8
  | .smem => 0
  | _ => 0

abbrev bufTy : (tb : Table) → Fin (tcTables nBuf tb) → BufTy
  | .hbm, ⟨0, _⟩ => ⟨S2097152x4, .f32⟩
  | .hbm, ⟨1, _⟩ => ⟨S50x4, .f32⟩
  | .hbm, ⟨2, _⟩ => ⟨S50, .f32⟩
  | .hbm, ⟨3, _⟩ => ⟨S2x50, .f32⟩
  | .hbm, ⟨4, _⟩ => ⟨S2, .f32⟩
  | .hbm, ⟨5, _⟩ => ⟨S0, .i32⟩
  | .hbm, ⟨6, _⟩ => ⟨S_, .f32⟩
  | .hbm, ⟨7, _⟩ => ⟨S56x4, .f32⟩
  | .hbm, ⟨8, _⟩ => ⟨S_, .i32⟩
  | .hbm, ⟨9, _⟩ => ⟨S1, .i32⟩
  | .hbm, ⟨10, _⟩ => ⟨S56x4, .f32⟩
  | .hbm, ⟨11, _⟩ => ⟨S_, .f32⟩
  | .hbm, ⟨12, _⟩ => ⟨S56x1, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S56x1, .f32⟩
  | .hbm, ⟨19, _⟩ => ⟨S_, .f32⟩
  | .hbm, ⟨20, _⟩ => ⟨S2x56, .f32⟩
  | .hbm, ⟨21, _⟩ => ⟨S_, .i32⟩
  | .hbm, ⟨22, _⟩ => ⟨S1, .i32⟩
  | .hbm, ⟨23, _⟩ => ⟨S2x56, .f32⟩
  | .hbm, ⟨24, _⟩ => ⟨S2x1, .f32⟩
  | .hbm, ⟨25, _⟩ => ⟨S_, .f32⟩
  | .hbm, ⟨26, _⟩ => ⟨S4x2097152, .f32⟩
  | .hbm, ⟨27, _⟩ => ⟨S4x2097152, .f32⟩
  | .hbm, ⟨28, _⟩ => ⟨S4x2097152, .f32⟩
  | .hbm, ⟨29, _⟩ => ⟨S2x2097152, .f32⟩
  | .hbm, ⟨30, _⟩ => ⟨S2097152x2, .f32⟩
  | .local _ .vmem, ⟨0, _⟩ => ⟨S4x32768, .f32⟩
  | .local _ .vmem, ⟨1, _⟩ => ⟨S4x32768, .f32⟩
  | .local _ .vmem, ⟨2, _⟩ => ⟨S56x4, .f32⟩
  | .local _ .vmem, ⟨3, _⟩ => ⟨S56x1, .f32⟩
  | .local _ .vmem, ⟨4, _⟩ => ⟨S2x56, .f32⟩
  | .local _ .vmem, ⟨5, _⟩ => ⟨S2x1, .f32⟩
  | .local _ .vmem, ⟨6, _⟩ => ⟨S2x32768, .f32⟩
  | .local _ .vmem, ⟨7, _⟩ => ⟨S2x32768, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_cst : Ref sig .tc := ⟨.hbm, 6, rfl⟩
abbrev main_call0_v0 : Ref sig .tc := ⟨.hbm, 7, rfl⟩
abbrev main_call0_c_0 : Ref sig .tc := ⟨.hbm, 8, rfl⟩
abbrev main_call0_v1 : Ref sig .tc := ⟨.hbm, 9, rfl⟩
abbrev main_call0_v2 : Ref sig .tc := ⟨.hbm, 10, rfl⟩
abbrev main_call0_cst_1 : Ref sig .tc := ⟨.hbm, 11, rfl⟩
abbrev main_call0_v3 : Ref sig .tc := ⟨.hbm, 12, rfl⟩
abbrev main_call0_c_2 : Ref sig .tc := ⟨.hbm, 13, rfl⟩
abbrev main_call0_v4 : Ref sig .tc := ⟨.hbm, 14, rfl⟩
abbrev main_call0_c_3 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_4 : Ref sig .tc := ⟨.hbm, 19, rfl⟩
abbrev main_call0_v8 : Ref sig .tc := ⟨.hbm, 20, rfl⟩
abbrev main_call0_c_5 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_cst_6 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S56x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  hz_S0 : S0.numel = 0
  bcast_S_S56x4 : S_.BroadcastsInDim S56x4 (![] : Fin 0 → Fin S56x4.rank)
  bcast_S_S1 : S_.BroadcastsInDim S1 (![] : Fin 0 → Fin S1.rank)
  bcast_S_S56x1 : S_.BroadcastsInDim S56x1 (![] : Fin 0 → Fin S56x1.rank)
  concatenates_S1_S1_S2_d0 : Shape.Concatenates [S1, S1] S2 0
  bcast_S_S2x56 : S_.BroadcastsInDim S2x56 (![] : Fin 0 → Fin S2x56.rank)
  bcast_S2_S2x1_0 : S2.BroadcastsInDim S2x1 (![0] : Fin 1 → Fin S2x1.rank)
  bcast_S_S4x2097152 : S_.BroadcastsInDim S4x2097152 (![] : Fin 0 → Fin S4x2097152.rank)
  transposes_S2097152x4_S4x2097152_1_0 : S2097152x4.Transposes [1, 0] S4x2097152
  transposes_S2x2097152_S2097152x2_1_0 : S2x2097152.Transposes [1, 0] S2097152x2
  inb_S56x4_S56x4_0_0 : ∀ a, (![0, 0] : Fin 2 → Nat) a + S56x4.size a ≤ S56x4.size a
  h_S56x4 : 0 < S56x4.numel
  shapeCasts_S56x4_S56x4 : S56x4.ShapeCasts S56x4
  inb_S4x32768_S4x32768_0_0 : ∀ a, (![0, 0] : Fin 2 → Nat) a + S4x32768.size a ≤ S4x32768.size a
  h_S4x32768 : 0 < S4x32768.numel
  shapeCasts_S4x32768_S4x32768 : S4x32768.ShapeCasts S4x32768
  inb_S56x1_S56x1_0_0 : ∀ a, (![0, 0] : Fin 2 → Nat) a + S56x1.size a ≤ S56x1.size a
  h_S56x1 : 0 < S56x1.numel
  shapeCasts_S56x1_S56x1 : S56x1.ShapeCasts S56x1
  broadcasts_S56x1_S56x32768 : S56x1.Broadcasts S56x32768
  inb_S2x56_S2x56_0_0 : ∀ a, (![0, 0] : Fin 2 → Nat) a + S2x56.size a ≤ S2x56.size a
  h_S2x56 : 0 < S2x56.numel
  shapeCasts_S2x56_S2x56 : S2x56.ShapeCasts S2x56
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x32768 : S2x1.Broadcasts S2x32768
  inb_S2x32768_S2x32768_0_0 : ∀ a, (![0, 0] : Fin 2 → Nat) a + S2x32768.size a ≤ S2x32768.size a
  h_S2x32768 : 0 < S2x32768.numel
  scatter_S56x4_S1_S50x4_01_n_0_0_wf : ScatterDims.WF S56x4 S1 S50x4 [0, 1] [] [0] 0
  scatter_S56x1_S2_S50_0_1_01_0_wf : ScatterDims.WF S56x1 S2 S50 [0] [1] [0, 1] 0
  scatter_S2x56_S1_S2x50_01_n_1_0_wf : ScatterDims.WF S2x56 S1 S2x50 [0, 1] [] [1] 0
  scatter_S4x2097152_S0_S4x2097152_01_n_n_0_wf : ScatterDims.WF S4x2097152 S0 S4x2097152 [0, 1] [] [] 0
  dot_S56x4_S4x32768_S56x32768_1_0_0_1_n_n_wf : DotDims.WF S56x4 S4x32768 S56x32768 [1] [0] [0] [1] [] []
  dot_S2x56_S56x32768_S2x32768_1_0_0_1_n_n_wf : DotDims.WF S2x56 S56x32768 S2x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32768.size a ≤ S4x2097152.size a
  hwx0_0 : ∀ i : grid0.Coords, EltTy.bits .f32 = 32 ∨ (Rect.block (s := S4x2097152) S4x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S56x4.size a ≤ S56x4.size a
  hwx0_1 : ∀ i : grid0.Coords, EltTy.bits .f32 = 32 ∨ (Rect.block (s := S56x4) S56x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S56x1.size a ≤ S56x1.size a
  hwx0_2 : ∀ i : grid0.Coords, EltTy.bits .f32 = 32 ∨ (Rect.block (s := S56x1) S56x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x56.size a ≤ S2x56.size a
  hwx0_3 : ∀ i : grid0.Coords, EltTy.bits .f32 = 32 ∨ (Rect.block (s := S2x56) S2x56.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x32768.size a ≤ S2x2097152.size a
  hwx0_5 : ∀ i : grid0.Coords, EltTy.bits .f32 = 32 ∨ (Rect.block (s := S2x2097152) S2x32768.size (cc0_transform_5 i) (hinb0_5 i)).WholeWords (EltTy.packing .f32)

variable [Facts₀]

def scatter_S56x4_S1_S50x4_01_n_0_0 : ScatterDims S56x4 S1 S50x4 where
  updateWindowDims := [0, 1]
  insertedWindowDims := []
  scatterDimsToOperandDims := [0]
  indexVectorDim := 0
  wf := scatter_S56x4_S1_S50x4_01_n_0_0_wf
def scatter_S56x1_S2_S50_0_1_01_0 : ScatterDims S56x1 S2 S50 where
  updateWindowDims := [0]
  insertedWindowDims := [1]
  scatterDimsToOperandDims := [0, 1]
  indexVectorDim := 0
  wf := scatter_S56x1_S2_S50_0_1_01_0_wf
def scatter_S2x56_S1_S2x50_01_n_1_0 : ScatterDims S2x56 S1 S2x50 where
  updateWindowDims := [0, 1]
  insertedWindowDims := []
  scatterDimsToOperandDims := [1]
  indexVectorDim := 0
  wf := scatter_S2x56_S1_S2x50_01_n_1_0_wf
def scatter_S4x2097152_S0_S4x2097152_01_n_n_0 : ScatterDims S4x2097152 S0 S4x2097152 where
  updateWindowDims := [0, 1]
  insertedWindowDims := []
  scatterDimsToOperandDims := []
  indexVectorDim := 0
  wf := scatter_S4x2097152_S0_S4x2097152_01_n_n_0_wf
def dot_S56x4_S4x32768_S56x32768_1_0_0_1_n_n : DotDims S56x4 S4x32768 S56x32768 where
  lhsContracting := [1]
  rhsContracting := [0]
  lhsNonContracting := [0]
  rhsNonContracting := [1]
  lhsBatch := []
  rhsBatch := []
  wf := dot_S56x4_S4x32768_S56x32768_1_0_0_1_n_n_wf
def dot_S2x56_S56x32768_S2x32768_1_0_0_1_n_n : DotDims S2x56 S56x32768 S2x32768 where
  lhsContracting := [1]
  rhsContracting := [0]
  lhsNonContracting := [0]
  rhsNonContracting := [1]
  lhsBatch := []
  rhsBatch := []
  wf := dot_S2x56_S56x32768_S2x32768_1_0_0_1_n_n_wf

abbrev win0_0 : Pipeline.Window sig grid0 :=
  Pipeline.Window.ofSpec (Memref.whole main_call0_v14) S4x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S56x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S56x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S2x56.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v15) S2x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S50x4 : Shape := ⟨2, ![50, 4]⟩
abbrev S50 : Shape := ⟨1, ![50]⟩
abbrev S2x50 : Shape := ⟨2, ![2, 50]⟩
abbrev S2 : Shape := ⟨1, ![2]⟩
abbrev S_ : Shape := ⟨0, ![]⟩
abbrev S56x8 : Shape := ⟨2, ![56, 8]⟩
abbrev S1 : Shape := ⟨1, ![1]⟩
abbrev S56x1 : Shape := ⟨2, ![56, 1]⟩
abbrev S8x56 : Shape := ⟨2, ![8, 56]⟩
abbrev S8x1 : Shape := ⟨2, ![8, 1]⟩
abbrev S8x2097152 : Shape := ⟨2, ![8, 2097152]⟩
abbrev S4x2097152 : Shape := ⟨2, ![4, 2097152]⟩
abbrev S2x2097152 : Shape := ⟨2, ![2, 2097152]⟩
abbrev S2097152x2 : Shape := ⟨2, ![2097152, 2]⟩
abbrev S8x4096 : Shape := ⟨2, ![8, 4096]⟩
abbrev S56x4096 : Shape := ⟨2, ![56, 4096]⟩

abbrev nBuf : Space → Nat
  | .hbm => 46
  | .vmem => 8
  | .smem => 0
  | _ => 0

abbrev bufTy : (tb : Table) → Fin (tcTables nBuf tb) → BufTy
  | .hbm, ⟨0, _⟩ => ⟨S2097152x4, .f32⟩
  | .hbm, ⟨1, _⟩ => ⟨S50x4, .f32⟩
  | .hbm, ⟨2, _⟩ => ⟨S50, .f32⟩
  | .hbm, ⟨3, _⟩ => ⟨S2x50, .f32⟩
  | .hbm, ⟨4, _⟩ => ⟨S2, .f32⟩
  | .hbm, ⟨5, _⟩ => ⟨S_, .f32⟩
  | .hbm, ⟨6, _⟩ => ⟨S56x8, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S56x8, .f32⟩
  | .hbm, ⟨13, _⟩ => ⟨S_, .f32⟩
  | .hbm, ⟨14, _⟩ => ⟨S56x1, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S56x1, .f32⟩
  | .hbm, ⟨21, _⟩ => ⟨S_, .f32⟩
  | .hbm, ⟨22, _⟩ => ⟨S8x56, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S8x56, .f32⟩
  | .hbm, ⟨29, _⟩ => ⟨S_, .f32⟩
  | .hbm, ⟨30, _⟩ => ⟨S8x1, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S8x1, .f32⟩
  | .hbm, ⟨37, _⟩ => ⟨S_, .f32⟩
  | .hbm, ⟨38, _⟩ => ⟨S8x2097152, .f32⟩
  | .hbm, ⟨39, _⟩ => ⟨S4x2097152, .f32⟩
  | .hbm, ⟨40, _⟩ => ⟨S_, .i32⟩
  | .hbm, ⟨41, _⟩ => ⟨S1, .i32⟩
  | .hbm, ⟨42, _⟩ => ⟨S8x2097152, .f32⟩
  | .hbm, ⟨43, _⟩ => ⟨S8x2097152, .f32⟩
  | .hbm, ⟨44, _⟩ => ⟨S2x2097152, .f32⟩
  | .hbm, ⟨45, _⟩ => ⟨S2097152x2, .f32⟩
  | .local _ .vmem, ⟨0, _⟩ => ⟨S8x4096, .f32⟩
  | .local _ .vmem, ⟨1, _⟩ => ⟨S8x4096, .f32⟩
  | .local _ .vmem, ⟨2, _⟩ => ⟨S56x8, .f32⟩
  | .local _ .vmem, ⟨3, _⟩ => ⟨S56x1, .f32⟩
  | .local _ .vmem, ⟨4, _⟩ => ⟨S8x56, .f32⟩
  | .local _ .vmem, ⟨5, _⟩ => ⟨S8x1, .f32⟩
  | .local _ .vmem, ⟨6, _⟩ => ⟨S8x4096, .f32⟩
  | .local _ .vmem, ⟨7, _⟩ => ⟨S8x4096, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩
abbrev main_c_8 : Ref sig .tc := ⟨.hbm, 31, rfl⟩
abbrev main_v16 : Ref sig .tc := ⟨.hbm, 32, rfl⟩
abbrev main_c_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_c : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_v20 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S56x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S56x8 : S_.BroadcastsInDim S56x8 (![] : Fin 0 → Fin S56x8.rank)
  bcast_S_S1 : S_.BroadcastsInDim S1 (![] : Fin 0 → Fin S1.rank)
  concatenates_S1_S1_S2_d0 : Shape.Concatenates [S1, S1] S2 0
  bcast_S_S56x1 : S_.BroadcastsInDim S56x1 (![] : Fin 0 → Fin S56x1.rank)
  bcast_S_S8x56 : S_.BroadcastsInDim S8x56 (![] : Fin 0 → Fin S8x56.rank)
  bcast_S_S8x1 : S_.BroadcastsInDim S8x1 (![] : Fin 0 → Fin S8x1.rank)
  bcast_S_S8x2097152 : S_.BroadcastsInDim S8x2097152 (![] : Fin 0 → Fin S8x2097152.rank)
  transposes_S2097152x4_S4x2097152_1_0 : S2097152x4.Transposes [1, 0] S4x2097152
  slices_S8x2097152_S2x2097152_0_0 : S8x2097152.Slices ![0, 0] S2x2097152
  transposes_S2x2097152_S2097152x2_1_0 : S2x2097152.Transposes [1, 0] S2097152x2
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S56x8_S56x8_0_0 : ∀ a, (![0, 0] : Fin 2 → Nat) a + S56x8.size a ≤ S56x8.size a
  h_S56x8 : 0 < S56x8.numel
  shapeCasts_S56x8_S56x8 : S56x8.ShapeCasts S56x8
  inb_S56x1_S56x1_0_0 : ∀ a, (![0, 0] : Fin 2 → Nat) a + S56x1.size a ≤ S56x1.size a
  h_S56x1 : 0 < S56x1.numel
  shapeCasts_S56x1_S56x1 : S56x1.ShapeCasts S56x1
  broadcasts_S56x1_S56x4096 : S56x1.Broadcasts S56x4096
  inb_S8x56_S8x56_0_0 : ∀ a, (![0, 0] : Fin 2 → Nat) a + S8x56.size a ≤ S8x56.size a
  h_S8x56 : 0 < S8x56.numel
  shapeCasts_S8x56_S8x56 : S8x56.ShapeCasts S8x56
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x4096 : S8x1.Broadcasts S8x4096
  scatter_S56x8_S2_S50x4_01_n_01_0_wf : ScatterDims.WF S56x8 S2 S50x4 [0, 1] [] [0, 1] 0
  scatter_S56x1_S2_S50_0_1_01_0_wf : ScatterDims.WF S56x1 S2 S50 [0] [1] [0, 1] 0
  scatter_S8x56_S2_S2x50_01_n_01_0_wf : ScatterDims.WF S8x56 S2 S2x50 [0, 1] [] [0, 1] 0
  scatter_S8x1_S2_S2_0_1_01_0_wf : ScatterDims.WF S8x1 S2 S2 [0] [1] [0, 1] 0
  scatter_S8x2097152_S1_S4x2097152_01_n_0_0_wf : ScatterDims.WF S8x2097152 S1 S4x2097152 [0, 1] [] [0] 0
  dot_S56x8_S8x4096_S56x4096_1_0_0_1_n_n_wf : DotDims.WF S56x8 S8x4096 S56x4096 [1] [0] [0] [1] [] []
  dot_S8x56_S56x4096_S8x4096_1_0_0_1_n_n_wf : DotDims.WF S8x56 S56x4096 S8x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x2097152.size a
  hwx0_0 : ∀ i : grid0.Coords, EltTy.bits .f32 = 32 ∨ (Rect.block (s := S8x2097152) S8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S56x8.size a ≤ S56x8.size a
  hwx0_1 : ∀ i : grid0.Coords, EltTy.bits .f32 = 32 ∨ (Rect.block (s := S56x8) S56x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S56x1.size a ≤ S56x1.size a
  hwx0_2 : ∀ i : grid0.Coords, EltTy.bits .f32 = 32 ∨ (Rect.block (s := S56x1) S56x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x56.size a ≤ S8x56.size a
  hwx0_3 : ∀ i : grid0.Coords, EltTy.bits .f32 = 32 ∨ (Rect.block (s := S8x56) S8x56.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x4096.size a ≤ S8x2097152.size a
  hwx0_5 : ∀ i : grid0.Coords, EltTy.bits .f32 = 32 ∨ (Rect.block (s := S8x2097152) S8x4096.size (cc0_transform_5 i) (hinb0_5 i)).WholeWords (EltTy.packing .f32)

variable [Facts₀]

def scatter_S56x8_S2_S50x4_01_n_01_0 : ScatterDims S56x8 S2 S50x4 where
  updateWindowDims := [0, 1]
  insertedWindowDims := []
  scatterDimsToOperandDims := [0, 1]
  indexVectorDim := 0
  wf := scatter_S56x8_S2_S50x4_01_n_01_0_wf
def scatter_S56x1_S2_S50_0_1_01_0 : ScatterDims S56x1 S2 S50 where
  updateWindowDims := [0]
  insertedWindowDims := [1]
  scatterDimsToOperandDims := [0, 1]
  indexVectorDim := 0
  wf := scatter_S56x1_S2_S50_0_1_01_0_wf
def scatter_S8x56_S2_S2x50_01_n_01_0 : ScatterDims S8x56 S2 S2x50 where
  updateWindowDims := [0, 1]
  insertedWindowDims := []
  scatterDimsToOperandDims := [0, 1]
  indexVectorDim := 0
  wf := scatter_S8x56_S2_S2x50_01_n_01_0_wf
def scatter_S8x1_S2_S2_0_1_01_0 : ScatterDims S8x1 S2 S2 where
  updateWindowDims := [0]
  insertedWindowDims := [1]
  scatterDimsToOperandDims := [0, 1]
  indexVectorDim := 0
  wf := scatter_S8x1_S2_S2_0_1_01_0_wf
def scatter_S8x2097152_S1_S4x2097152_01_n_0_0 : ScatterDims S8x2097152 S1 S4x2097152 where
  updateWindowDims := [0, 1]
  insertedWindowDims := []
  scatterDimsToOperandDims := [0]
  indexVectorDim := 0
  wf := scatter_S8x2097152_S1_S4x2097152_01_n_0_0_wf
def dot_S56x8_S8x4096_S56x4096_1_0_0_1_n_n : DotDims S56x8 S8x4096 S56x4096 where
  lhsContracting := [1]
  rhsContracting := [0]
  lhsNonContracting := [0]
  rhsNonContracting := [1]
  lhsBatch := []
  rhsBatch := []
  wf := dot_S56x8_S8x4096_S56x4096_1_0_0_1_n_n_wf
def dot_S8x56_S56x4096_S8x4096_1_0_0_1_n_n : DotDims S8x56 S56x4096 S8x4096 where
  lhsContracting := [1]
  rhsContracting := [0]
  lhsNonContracting := [0]
  rhsNonContracting := [1]
  lhsBatch := []
  rhsBatch := []
  wf := dot_S8x56_S56x4096_S8x4096_1_0_0_1_n_n_wf

abbrev win0_0 : Pipeline.Window sig grid0 :=
  Pipeline.Window.ofSpec (Memref.whole main_call0_v3) S8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S56x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S56x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8x56.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S8x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibScatterForms.lean ====
/-
  The host's scatter-add in two spellings of one sum.

  Updates `u e`, one per edge `e`, are added onto the entries `dst e` of a node array. Spelt over vectors, the
  operand is `[N]` and the updates `[E]`; spelt with a trailing unit axis, the operand is `[N, 1]` and the updates
  are rows `[E, 1]` that land whole. In both, the start index of update `e` is read signed off the same index
  column and is NOT clamped, so update `e` lands on node `n` exactly when `dst e = n`; the two scattered arrays
  therefore agree entry by entry when the updates and the operands do.
-/
import Idealize.ShloMosaic.PureOps.Ideal.Laws
import Idealize.ShloMosaic.Lib.ValueIdx

noncomputable section

namespace Cert.ScatterForms

open Idealize.ShloMosaic Idealize.ShloMosaic.ValueIdx

/-- An update lands on operand entry `i` exactly when, on every axis, its unclamped start plus its window
    coordinate is `i`'s coordinate (being a coordinate of `i`, that sum is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrArg (fun f => (f a).val) (Option.some.inj he)
      have h2 := (h a).1
      simp only at h1
      omega
    · intro he
      refine congrArg some (funext fun a => Fin.ext ?_)
      have h1 := he a
      have h2 := (h a).1
      show (d.start j idx a + (d.window j a : Int)).toNat = (i a).val
      omega
  · rename_i h
    constructor
    · intro he
      exact absurd he (by simp)
    · intro he
      exfalso
      apply h
      intro a
      have h1 := he a
      have h2 := (i a).isLt
      constructor <;> omega

/-! ## Over vectors -/

/-- The dimension numbers of `x.at[idx].add(u)` for `x : [N]`, `idx : [E]` given as a column `[E, 1]`, `u : [E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window {N E : Nat} (wf : ScatterDims.WF ⟨1, ![N]⟩ ⟨2, ![E, 1]⟩ ⟨1, ![E]⟩ [] [0] [0] 1) (e : Fin E) :
    (vecScatter N E wf).window (ix1 e) 0 = 0 := by
  unfold ScatterDims.window
  rw [dif_neg (show ¬ (0 : Fin 1) ∈ (vecScatter N E wf).sKept from
    fun h => (of_decide_eq_true (List.mem_filter.mp h).2) (List.mem_singleton.mpr rfl))]

/-- Update `e` lands on entry `n` exactly when its index, read signed, is `n`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [vecScatter_start, vecScatter_window] at this
    simpa using h0
  · intro h a
    obtain rfl : a = 0 := Subsingleton.elim _ _
    show (vecScatter N E wf).start (ix1 e) idx 0 + ((vecScatter N E wf).window (ix1 e) 0 : Int) = (n.val : Int)
    rw [vecScatter_start, vecScatter_window]
    simpa using h

/-! ## With a trailing unit axis -/

/-- The dimension numbers of `x.at[idx].add(u)` for `x : [N, 1]`, `idx : [E]` given as a column `[E, 1]`, `u : [E, 1]`:
    update row `e` goes, whole, to operand row `idx[e]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

theorem colScatter_start0 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) :
    (colScatter N E wf).start (ix2 e c) idx 0 = (idx (ix2 e (0 : Fin 1))).toInt := by
  unfold ScatterDims.start
  rw [dif_pos (show (0 : Fin 2) ∈ (colScatter N E wf).scatterDimsToOperandDims from List.mem_singleton.mpr rfl)]
  have hsi : (colScatter N E wf).siIdx (ix2 e c) ⟨List.idxOf (0 : Fin 2) (colScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem colScatter_window0 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 0 = 0 := by
  unfold ScatterDims.window
  rw [dif_neg (show ¬ (0 : Fin 2) ∈ (colScatter N E wf).sKept from
    fun h => (of_decide_eq_true (List.mem_filter.mp h).2) (List.mem_singleton.mpr rfl))]

/-- On the unit axis the window coordinate of update `(e, c)` is `c` itself. -/
theorem colScatter_window1 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 1 = c.val := by
  have hk : (1 : Fin 2) ∈ (colScatter N E wf).sKept := by
    simp [ScatterDims.sKept, Shape.kept, List.mem_filter, List.mem_finRange]
  have hoff : ∀ (k : Nat) (hk : k < (colScatter N E wf).updateWindowDims.length),
      (colScatter N E wf).updateWindowDims[k]'hk = (1 : Fin 2) := by
    intro k hk
    match k, hk with
    | 0, _ => rfl
  unfold ScatterDims.window
  rw [dif_pos hk]
  show ((ix2 e c) ((colScatter N E wf).updateWindowDims[List.idxOf (1 : Fin 2) (colScatter N E wf).sKept]'_)).val = c.val
  rw [hoff]

/-- The unit axis is not indexed: its start is 0. -/
theorem colScatter_start1 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) : (colScatter N E wf).start (ix2 e c) idx 1 = 0 := by
  unfold ScatterDims.start
  rw [dif_neg (show ¬ (1 : Fin 2) ∈ (colScatter N E wf).scatterDimsToOperandDims from
    fun h => absurd (congrArg Fin.val (List.mem_singleton.mp h)) Nat.one_ne_zero)]

/-- Update row `e` lands on row `n` exactly when its index, read signed, is `n`. -/
theorem colScatter_lands {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) (n : Fin N) (z : Fin 1) :
    (colScatter N E wf).resultIdx? (ix2 e c) idx = some (ix2 n z) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [colScatter_start0, colScatter_window0] at this
    simpa using h0
  · intro h a
    match a with
    | ⟨0, _⟩ =>
      show (colScatter N E wf).start (ix2 e c) idx 0 + ((colScatter N E wf).window (ix2 e c) 0 : Int) = (n.val : Int)
      rw [colScatter_start0, colScatter_window0]
      simpa using h
    | ⟨1, _⟩ =>
      show (colScatter N E wf).start (ix2 e c) idx 1 + ((colScatter N E wf).window (ix2 e c) 1 : Int) = (z.val : Int)
      rw [colScatter_start1, colScatter_window1]
      have hc := c.isLt
      have hz := z.isLt
      omega

/-! ## The two spellings give one sum -/

/-- THE LAW that joins the two programs' scatters: with the same index column, operands that agree at node `n` and
    updates that agree edge by edge, the scattered vector at `n` is the scattered column at `(n, 0)` — the updates that
    land there are the same edges. -/
theorem scatterAdd_vec_eq_col {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w)
    (xK : (⟨1, ![N]⟩ : Shape).Idx → EReal) (xR : (⟨2, ![N, 1]⟩ : Shape).Idx → EReal)
    (uK : (⟨1, ![E]⟩ : Shape).Idx → EReal) (uR : (⟨2, ![E, 1]⟩ : Shape).Idx → EReal)
    (n : Fin N) (z : Fin 1) (hx : xK (ix1 n) = xR (ix2 n z))
    (hu : ∀ e : Fin E, uK (ix1 e) = uR (ix2 e (0 : Fin 1))) :
    Ideal.hostScatterAdd (vecScatter N E wfK) xK idx uK (ix1 n)
      = Ideal.hostScatterAdd (colScatter N E wfR) xR idx uR (ix2 n z) := by
  unfold Ideal.hostScatterAdd
  rw [hx]
  congr 1
  refine Finset.sum_bij' (fun j _ => ix2 (j 0) (0 : Fin 1)) (fun j _ => ix1 (j 0)) ?_ ?_ ?_ ?_ ?_
  · intro j hj
    obtain ⟨e, rfl⟩ : ∃ e, j = ix1 e := ⟨j 0, eq_ix1 j⟩
    rw [Finset.mem_filter] at hj ⊢
    exact ⟨Finset.mem_univ _, (colScatter_lands wfR idx e 0 n z).mpr ((vecScatter_lands wfK idx e n).mp hj.2)⟩
  · intro j hj
    obtain ⟨e, c, rfl⟩ : ∃ e c, j = ix2 e c := ⟨j 0, j 1, eq_ix2 j⟩
    rw [Finset.mem_filter] at hj ⊢
    exact ⟨Finset.mem_univ _, (vecScatter_lands wfK idx e n).mpr ((colScatter_lands wfR idx e c n z).mp hj.2)⟩
  · intro j _
    exact (eq_ix1 j).symm
  · intro j _
    funext a
    match a with
    | ⟨0, _⟩ => rfl
    | ⟨1, _⟩ =>
      refine Fin.ext ?_
      have := idx2_lt1 j
      show (0 : ℕ) = (j 1).val
      omega
  · intro j _
    obtain ⟨e, rfl⟩ : ∃ e, j = ix1 e := ⟨j 0, eq_ix1 j⟩
    exact hu e

end Cert.ScatterForms

end
-- ==== Proof.LibScatterSet.lean ====
/-
  The host's scatter whose body returns the update (jnp's x.at[...].set(u)), read at an entry.

  The scatter is a fold over the update indices in row-major order; each update replaces the entry it lands on.
  When at most one update lands on an entry, the entry ends holding that update; an entry no update lands on keeps
  the operand's value.
-/
import Idealize.ShloMosaic.PureOps.Ideal.Laws
import Idealize.ShloMosaic.Lib.ValueIdx

noncomputable section

namespace Cert.Lib.ScatterSet

open Idealize.ShloMosaic

variable {s si u : Shape} {α : Type} {w : ℕ} (d : ScatterDims s si u) (x : s.Idx → α) (idx : IVec si w) (upd : u.Idx → α)

/-- One step of the fold. -/
def step (r : s.Idx → α) (n : Fin u.numel) : s.Idx → α :=
  match d.resultIdx? (u.rowMajor.symm n) idx with
  | some i => fun i' => if i' = i then upd (u.rowMajor.symm n) else r i'
  | none => r

theorem scatter_eq_foldl : Host.scatter d (fun _ b => b) x idx upd = (List.finRange u.numel).foldl (step d idx upd) x := rfl

theorem step_of_ne (r : s.Idx → α) (n : Fin u.numel) (i' : s.Idx) (h : d.resultIdx? (u.rowMajor.symm n) idx ≠ some i') :
    step d idx upd r n i' = r i' := by
  unfold step
  generalize d.resultIdx? (u.rowMajor.symm n) idx = o at h ⊢
  cases o with
  | none => rfl
  | some i =>
    show (if i' = i then upd (u.rowMajor.symm n) else r i') = r i'
    exact if_neg (fun e => h (by rw [e]))

theorem step_of_eq (r : s.Idx → α) (n : Fin u.numel) (i' : s.Idx) (h : d.resultIdx? (u.rowMajor.symm n) idx = some i') :
    step d idx upd r n i' = upd (u.rowMajor.symm n) := by
  unfold step
  generalize d.resultIdx? (u.rowMajor.symm n) idx = o at h ⊢
  cases o with
  | none => exact absurd h (by simp)
  | some i =>
    show (if i' = i then upd (u.rowMajor.symm n) else r i') = _
    exact if_pos (Option.some.inj h).symm

theorem foldl_of_miss (i' : s.Idx) : ∀ (l : List (Fin u.numel)) (r : s.Idx → α),
    (∀ n ∈ l, d.resultIdx? (u.rowMajor.symm n) idx ≠ some i') → l.foldl (step d idx upd) r i' = r i'
  | [], _, _ => rfl
  | n :: l, r, h => by
    rw [List.foldl_cons, foldl_of_miss i' l _ (fun k hk => h k (List.mem_cons_of_mem _ hk)),
      step_of_ne d idx upd r n i' (h n List.mem_cons_self)]

theorem foldl_of_hit (i' : s.Idx) (n0 : Fin u.numel) (h0 : d.resultIdx? (u.rowMajor.symm n0) idx = some i') :
    ∀ (l : List (Fin u.numel)) (r : s.Idx → α), n0 ∈ l → l.Nodup →
      (∀ n ∈ l, d.resultIdx? (u.rowMajor.symm n) idx = some i' → n = n0) → l.foldl (step d idx upd) r i' = upd (u.rowMajor.symm n0)
  | [], _, hm, _, _ => absurd hm (by simp)
  | n :: l, r, hm, hnd, hinj => by
    rw [List.foldl_cons]
    have hnd' := List.nodup_cons.mp hnd
    by_cases hn : n = n0
    · subst hn
      rw [foldl_of_miss d idx upd i' l _ (fun k hk hk' => hnd'.1 (by rw [← hinj k (List.mem_cons_of_mem _ hk) hk']; exact hk)),
        step_of_eq d idx upd r n i' h0]
    · have hm' : n0 ∈ l := by
        rcases List.mem_cons.mp hm with h | h
        · exact absurd h.symm hn
        · exact h
      exact foldl_of_hit i' n0 h0 l _ hm' hnd'.2 (fun k hk => hinj k (List.mem_cons_of_mem _ hk))

/-- The entry one update lands on, and no other, ends holding that update. -/
theorem scatter_of_hit (i' : s.Idx) (j : u.Idx) (h : d.resultIdx? j idx = some i') (hinj : ∀ j', d.resultIdx? j' idx = some i' → j' = j) :
    Host.scatter d (fun _ b => b) x idx upd i' = upd j := by
  rw [scatter_eq_foldl]
  have h0 : d.resultIdx? (u.rowMajor.symm (u.rowMajor j)) idx = some i' := by rw [Equiv.symm_apply_apply]; exact h
  have := foldl_of_hit d idx upd i' (u.rowMajor j) h0 (List.finRange u.numel) x (List.mem_finRange _) (List.nodup_finRange _)
    (fun n _ hn => by
      have := hinj _ hn
      rw [← this, Equiv.apply_symm_apply])
  rw [this, Equiv.symm_apply_apply]

/-- An entry no update lands on keeps the operand's value. -/
theorem scatter_of_miss (i' : s.Idx) (h : ∀ j, d.resultIdx? j idx ≠ some i') :
    Host.scatter d (fun _ b => b) x idx upd i' = x i' := by
  rw [scatter_eq_foldl]
  exact foldl_of_miss d idx upd i' _ x (fun n _ => h _)

end Cert.Lib.ScatterSet

end
-- ==== Proof.LibSetPad.lean ====
/-
  jnp's `x.at[:a, :b].set(u)` read at an entry: a scatter whose body returns the update and whose index words are
  all zero.

  With every index word zero, every update window starts at the origin, so update `j` lands on the operand entry
  whose coordinates are `j`'s window coordinates. Given the embedding `emb` of update indices into operand indices
  that those window coordinates spell, and its injectivity, an entry `emb j` ends holding update `j`, and an entry
  outside the embedding's range keeps the operand's value: the scattered array is the operand overwritten by the
  update in its leading corner — a zero array padded around `u` when the operand is zero.
-/
import proofs.«145514_g2000301263756867_pallasbulk_1232_3_alg».proof.Proof.LibScatterForms
import proofs.«145514_g2000301263756867_pallasbulk_1232_3_alg».proof.Proof.LibScatterSet

noncomputable section

namespace Cert.Lib.SetPad

open Idealize.ShloMosaic

variable {s si u : Shape} {α : Type} {w : ℕ}

/-- All index words zero: every window starts at the origin on every operand axis. -/
theorem start_zero (d : ScatterDims s si u) (j : u.Idx) (idx : IVec si w) (hidx : ∀ k, idx k = 0#w)
    (a : Fin s.rank) : d.start j idx a = 0 := by
  unfold ScatterDims.start
  split
  · rw [hidx]; exact BitVec.toInt_zero
  · rfl

/-- So update `j` lands on entry `i` exactly when `i`'s coordinates are `j`'s window coordinates. -/
theorem lands_iff (d : ScatterDims s si u) (j : u.Idx) (idx : IVec si w) (hidx : ∀ k, idx k = 0#w) (i : s.Idx) :
    d.resultIdx? j idx = some i ↔ ∀ a, d.window j a = (i a).val := by
  rw [Cert.ScatterForms.resultIdx?_eq_some_iff]
  constructor
  · intro h a
    have h1 := h a
    rw [start_zero d j idx hidx] at h1
    omega
  · intro h a
    rw [start_zero d j idx hidx, h a]
    omega

variable (d : ScatterDims s si u) (x : s.Idx → α) (idx : IVec si w) (hidx : ∀ k, idx k = 0#w) (upd : u.Idx → α)
  (emb : u.Idx → s.Idx) (hw : ∀ j a, d.window j a = (emb j a).val)

include hidx hw in
/-- The entry update `j` is embedded at ends holding update `j`. -/
theorem set_at (hinj : Function.Injective emb) (j : u.Idx) :
    Host.scatter d (fun _ b => b) x idx upd (emb j) = upd j := by
  refine Cert.Lib.ScatterSet.scatter_of_hit d x idx upd (emb j) j ((lands_iff d j idx hidx _).mpr (hw j)) ?_
  intro j' hj'
  apply hinj
  funext a
  apply Fin.ext
  rw [← hw j' a, (lands_iff d j' idx hidx _).mp hj' a]

include hidx hw in
/-- An entry outside the embedding's range keeps the operand's value. -/
theorem set_off (i : s.Idx) (hi : ∀ j, emb j ≠ i) :
    Host.scatter d (fun _ b => b) x idx upd i = x i := by
  refine Cert.Lib.ScatterSet.scatter_of_miss d x idx upd i ?_
  intro j hj
  apply hi j
  funext a
  apply Fin.ext
  rw [← hw j a, (lands_iff d j idx hidx _).mp hj a]

end Cert.Lib.SetPad

end
-- ==== Proof.LibCornerSet.lean ====
/-
  jnp's `zeros((N0, N1)).at[:M0, :M1].set(u)` and `zeros((N, 1)).at[:M, 0].set(v)` read at an entry given by
  coordinates.

  Both are scatters whose body returns the update, with all index words zero. In the first the update is a matrix
  that lands, entry for entry, in the leading corner of the operand: entry (p, q) ends holding u (p, q) when p < M0 and
  q < M1, and keeps the operand's value otherwise. In the second the update is a vector that lands down the leading
  part of the operand's one column: entry (p, 0) ends holding v p when p < M, and keeps the operand's value otherwise.
  The hypotheses `hw0`, `hw1` say which window coordinate each operand axis gets; for a printed scatter they hold by
  computation.
-/
import proofs.«145514_g2000301263756867_pallasbulk_1232_3_alg».proof.Proof.LibSetPad

noncomputable section

namespace Cert.Lib.CornerSet

open Idealize.ShloMosaic Idealize.ShloMosaic.ValueIdx

variable {si : Shape} {α : Type} {w : ℕ}

/-- A matrix set into the leading corner of a matrix. -/
theorem corner2 {N0 N1 M0 M1 : ℕ} (h0 : M0 ≤ N0) (h1 : M1 ≤ N1)
    (d : ScatterDims ⟨2, ![N0, N1]⟩ si ⟨2, ![M0, M1]⟩)
    (hw0 : ∀ j, d.window j 0 = (j 0).val) (hw1 : ∀ j, d.window j 1 = (j 1).val)
    (x : (⟨2, ![N0, N1]⟩ : Shape).Idx → α) (idx : IVec si w) (hidx : ∀ k, idx k = 0#w)
    (upd : (⟨2, ![M0, M1]⟩ : Shape).Idx → α) (p : Fin N0) (q : Fin N1) :
    Host.scatter d (fun _ b => b) x idx upd (ix2 p q)
      = if h : p.val < M0 ∧ q.val < M1 then upd (ix2 ⟨p.val, h.1⟩ ⟨q.val, h.2⟩) else x (ix2 p q) := by
  let emb : (⟨2, ![M0, M1]⟩ : Shape).Idx → (⟨2, ![N0, N1]⟩ : Shape).Idx :=
    fun j => ix2 ⟨(j 0).val, lt_of_lt_of_le (idx2_lt0 j) h0⟩ ⟨(j 1).val, lt_of_lt_of_le (idx2_lt1 j) h1⟩
  have hw : ∀ j a, d.window j a = (emb j a).val := fun j a => by
    match a with
    | ⟨0, _⟩ => exact hw0 j
    | ⟨1, _⟩ => exact hw1 j
  split
  · rename_i h
    have e : ix2 p q = emb (ix2 ⟨p.val, h.1⟩ ⟨q.val, h.2⟩) := by
      funext a
      match a with
      | ⟨0, _⟩ => rfl
      | ⟨1, _⟩ => rfl
    rw [e]
    refine Cert.Lib.SetPad.set_at d x idx hidx upd emb hw ?_ _
    intro j j' hjj
    funext a
    apply Fin.ext
    match a with
    | ⟨0, _⟩ => exact congrArg (fun f => (f 0).val) hjj
    | ⟨1, _⟩ => exact congrArg (fun f => (f 1).val) hjj
  · rename_i h
    refine Cert.Lib.SetPad.set_off d x idx hidx upd emb hw _ ?_
    intro j hj
    apply h
    have e0 : (j 0).val = p.val := congrArg (fun f => (f 0).val) hj
    have e1 : (j 1).val = q.val := congrArg (fun f => (f 1).val) hj
    have l0 := idx2_lt0 j
    have l1 := idx2_lt1 j
    exact ⟨by omega, by omega⟩

/-- A vector set down the leading part of a one-column matrix. -/
theorem cornerCol {N M : ℕ} (h0 : M ≤ N)
    (d : ScatterDims ⟨2, ![N, 1]⟩ si ⟨1, ![M]⟩)
    (hw0 : ∀ j, d.window j 0 = (j 0).val) (hw1 : ∀ j, d.window j 1 = 0)
    (x : (⟨2, ![N, 1]⟩ : Shape).Idx → α) (idx : IVec si w) (hidx : ∀ k, idx k = 0#w)
    (upd : (⟨1, ![M]⟩ : Shape).Idx → α) (p : Fin N) (z : Fin 1) :
    Host.scatter d (fun _ b => b) x idx upd (ix2 p z)
      = if h : p.val < M then upd (ix1 ⟨p.val, h⟩) else x (ix2 p z) := by
  have lt1 : ∀ j : (⟨1, ![M]⟩ : Shape).Idx, (j 0).val < M := fun j => (j 0).isLt
  let emb : (⟨1, ![M]⟩ : Shape).Idx → (⟨2, ![N, 1]⟩ : Shape).Idx :=
    fun j => ix2 ⟨(j 0).val, lt_of_lt_of_le (lt1 j) h0⟩ (0 : Fin 1)
  have hw : ∀ j a, d.window j a = (emb j a).val := fun j a => by
    match a with
    | ⟨0, _⟩ => exact hw0 j
    | ⟨1, _⟩ => exact hw1 j
  split
  · rename_i h
    have e : ix2 p z = emb (ix1 ⟨p.val, h⟩) := by
      funext a
      match a with
      | ⟨0, _⟩ => rfl
      | ⟨1, _⟩ => exact Fin.ext (by have := z.isLt; show z.val = 0; omega)
    rw [e]
    refine Cert.Lib.SetPad.set_at d x idx hidx upd emb hw ?_ _
    intro j j' hjj
    funext a
    apply Fin.ext
    match a with
    | ⟨0, _⟩ => exact congrArg (fun f => (f 0).val) hjj
  · rename_i h
    refine Cert.Lib.SetPad.set_off d x idx hidx upd emb hw _ ?_
    intro j hj
    apply h
    have e0 : (j 0).val = p.val := congrArg (fun f => (f 0).val) hj
    have l0 := lt1 j
    omega

end Cert.Lib.CornerSet

end
-- ==== Proof.PolicySpec.lean ====
/-
  The policy network as one function of its five argument arrays, entry by entry, on the extended reals.

  For a batch `x : [B, 4]` (B = 2097152), first-layer weights `w1 : [50, 4]` and bias `b1 : [50]`, second-layer
  weights `w2 : [2, 50]` and bias `b2 : [2]`, the result at (b, a) is
      ∑ h < 56, W2 (a, h) · tanh (∑ s < 4, W1 (h, s) · x (b, s) + B1 h) + b2 a,
  where W1, B1, W2 are w1, b1, w2 padded with zeros from 50 to 56 hidden units. The six padded hidden units add
  W2 (a, h) · tanh (…) = 0 · tanh (…) = 0 each, whatever the hyperbolic tangent's value, so this is the network over
  its 50 hidden units; the padded form is kept because it is the form both programs compute.

  One program also pads the state axis from 4 to 8 with zeros: a sum over 8 terms whose last four vanish is the sum
  over the first four (`sum_eight_of_pad`). On the extended reals `0 · y = 0` for every y, infinite ones included,
  and `y + 0 = y`, so nothing here asks the entries to be finite.
-/
import Idealize.ShloMosaic.PureOps.Ideal
import Idealize.ShloMosaic.Lib.ValueIdx

noncomputable section

namespace Cert.PolicySpec

open Idealize.ShloMosaic Idealize.ShloMosaic.ValueIdx
open scoped BigOperators

/-- The first layer's weights, zero beyond hidden unit 50. -/
def padW1 (w1 : (⟨2, ![50, 4]⟩ : Shape).Idx → EReal) (h : Fin 56) (s : Fin 4) : EReal :=
  if hh : h.val < 50 then w1 (ix2 ⟨h.val, hh⟩ s) else 0

/-- The first layer's bias, zero beyond hidden unit 50. -/
def padB1 (b1 : (⟨1, ![50]⟩ : Shape).Idx → EReal) (h : Fin 56) : EReal :=
  if hh : h.val < 50 then b1 (ix1 ⟨h.val, hh⟩) else 0

/-- The second layer's weights, zero beyond hidden unit 50. -/
def padW2 (w2 : (⟨2, ![2, 50]⟩ : Shape).Idx → EReal) (a : Fin 2) (h : Fin 56) : EReal :=
  if hh : h.val < 50 then w2 (ix2 a ⟨h.val, hh⟩) else 0

/-- Action `a`'s score for batch row `b`. -/
def score (x : (⟨2, ![2097152, 4]⟩ : Shape).Idx → EReal) (w1 : (⟨2, ![50, 4]⟩ : Shape).Idx → EReal)
    (b1 : (⟨1, ![50]⟩ : Shape).Idx → EReal) (w2 : (⟨2, ![2, 50]⟩ : Shape).Idx → EReal)
    (b2 : (⟨1, ![2]⟩ : Shape).Idx → EReal) (b : Fin 2097152) (a : Fin 2) : EReal :=
  ∑ h : Fin 56, padW2 w2 a h * Ideal.tanh (∑ s : Fin 4, padW1 w1 h s * x (ix2 b s) + padB1 b1 h) + b2 (ix1 a)

/-- The result array: entry (b, a) is action `a`'s score for batch row `b`. -/
def policy (x : (⟨2, ![2097152, 4]⟩ : Shape).Idx → EReal) (w1 : (⟨2, ![50, 4]⟩ : Shape).Idx → EReal)
    (b1 : (⟨1, ![50]⟩ : Shape).Idx → EReal) (w2 : (⟨2, ![2, 50]⟩ : Shape).Idx → EReal)
    (b2 : (⟨1, ![2]⟩ : Shape).Idx → EReal) : (⟨2, ![2097152, 2]⟩ : Shape).Idx → EReal :=
  fun i => score x w1 b1 w2 b2 (i 0) (i 1)

/-- A sum over eight terms whose first four are `g`'s and whose last four are zero is the sum of `g`. -/
theorem sum_eight_of_pad (f : Fin 8 → EReal) (g : Fin 4 → EReal)
    (hlo : ∀ s : Fin 4, f ⟨s.val, by omega⟩ = g s) (hhi : ∀ s : Fin 8, 4 ≤ s.val → f s = 0) :
    ∑ s : Fin 8, f s = ∑ s : Fin 4, g s := by
  have e0 : f 0 = g 0 := hlo 0
  have e1 : f 1 = g 1 := hlo 1
  have e2 : f 2 = g 2 := hlo 2
  have e3 : f 3 = g 3 := hlo 3
  have e4 : f 4 = 0 := hhi 4 (by decide)
  have e5 : f 5 = 0 := hhi 5 (by decide)
  have e6 : f 6 = 0 := hhi 6 (by decide)
  have e7 : f 7 = 0 := hhi 7 (by decide)
  rw [Fin.sum_univ_eight, Fin.sum_univ_four, e0, e1, e2, e3, e4, e5, e6, e7]
  simp only [add_zero]

/-! ## The same network with the state axis padded to 8 rows and the action axis padded to 8 rows -/

/-- The region formula over arrays padded to 8 action rows and 8 state rows: entry (a, b) of
    w2 · tanh (w1 · xt + b1) + b2, with the bias columns stretched along the batch. -/
def wideScores (w2 : (⟨2, ![8, 56]⟩ : Shape).Idx → EReal) (w1 : (⟨2, ![56, 8]⟩ : Shape).Idx → EReal)
    (xt : (⟨2, ![8, 2097152]⟩ : Shape).Idx → EReal) (b1 : (⟨2, ![56, 1]⟩ : Shape).Idx → EReal)
    (b2 : (⟨2, ![8, 1]⟩ : Shape).Idx → EReal) : (⟨2, ![8, 2097152]⟩ : Shape).Idx → EReal :=
  fun i => ∑ h : Fin 56, w2 (ix2 (i 0) h)
      * Ideal.tanh (∑ s : Fin 8, w1 (ix2 h s) * xt (ix2 s (i 1)) + b1 (ix2 h (0 : Fin 1)))
    + b2 (ix2 (i 0) (0 : Fin 1))

theorem wideScores_apply (w2 : (⟨2, ![8, 56]⟩ : Shape).Idx → EReal) (w1 : (⟨2, ![56, 8]⟩ : Shape).Idx → EReal)
    (xt : (⟨2, ![8, 2097152]⟩ : Shape).Idx → EReal) (b1 : (⟨2, ![56, 1]⟩ : Shape).Idx → EReal)
    (b2 : (⟨2, ![8, 1]⟩ : Shape).Idx → EReal) (a : Fin 8) (b : Fin 2097152) :
    wideScores w2 w1 xt b1 b2 (ix2 a b)
      = ∑ h : Fin 56, w2 (ix2 a h) * Ideal.tanh (∑ s : Fin 8, w1 (ix2 h s) * xt (ix2 s b) + b1 (ix2 h (0 : Fin 1)))
        + b2 (ix2 a (0 : Fin 1)) := rfl

/-- On the two action rows the wide formula is the score, when the wide arrays are the zero paddings of the
    arguments: on action row a the second layer is the padded second layer; the first layer's weight is zero on the four
    padded state rows, where the product with whatever the batch array holds is zero, and on the four state rows the
    batch array is the transposed batch. -/
theorem wideScores_row (w2' : (⟨2, ![8, 56]⟩ : Shape).Idx → EReal) (w1' : (⟨2, ![56, 8]⟩ : Shape).Idx → EReal)
    (xt' : (⟨2, ![8, 2097152]⟩ : Shape).Idx → EReal) (b1' : (⟨2, ![56, 1]⟩ : Shape).Idx → EReal)
    (b2' : (⟨2, ![8, 1]⟩ : Shape).Idx → EReal)
    (x : (⟨2, ![2097152, 4]⟩ : Shape).Idx → EReal) (w1 : (⟨2, ![50, 4]⟩ : Shape).Idx → EReal)
    (b1 : (⟨1, ![50]⟩ : Shape).Idx → EReal) (w2 : (⟨2, ![2, 50]⟩ : Shape).Idx → EReal)
    (b2 : (⟨1, ![2]⟩ : Shape).Idx → EReal) (a : Fin 2) (b : Fin 2097152)
    (hw2 : ∀ h : Fin 56, w2' (ix2 (⟨a.val, by omega⟩ : Fin 8) h) = padW2 w2 a h)
    (hb2 : b2' (ix2 (⟨a.val, by omega⟩ : Fin 8) (0 : Fin 1)) = b2 (ix1 a))
    (hb1 : ∀ h : Fin 56, b1' (ix2 h (0 : Fin 1)) = padB1 b1 h)
    (hw1 : ∀ (h : Fin 56) (s : Fin 8), w1' (ix2 h s) = if hs : s.val < 4 then padW1 w1 h ⟨s.val, hs⟩ else 0)
    (hxt : ∀ s : Fin 8, xt' (ix2 s b) = if hs : s.val < 4 then x (ix2 b ⟨s.val, hs⟩) else 0) :
    wideScores w2' w1' xt' b1' b2' (ix2 (⟨a.val, by omega⟩ : Fin 8) b) = score x w1 b1 w2 b2 b a := by
  rw [wideScores_apply, hb2]
  unfold score
  refine congrArg (· + _) (Finset.sum_congr rfl fun h _ => ?_)
  rw [hw2 h, hb1 h]
  refine congrArg (fun y => _ * Ideal.tanh (y + _)) ?_
  refine sum_eight_of_pad _ _ (fun s => ?_) (fun s hs => ?_)
  · show w1' (ix2 h ⟨s.val, by omega⟩) * xt' (ix2 ⟨s.val, by omega⟩ b) = padW1 w1 h s * x (ix2 b s)
    rw [hw1, hxt, dif_pos s.isLt, dif_pos s.isLt]
  · show w1' (ix2 h s) * xt' (ix2 s b) = 0
    rw [hw1, dif_neg (by omega), zero_mul]

end Cert.PolicySpec

end
-- ==== Proof.KernelEntry.lean ====
/-
  What the kernel's one region finds in its five operand arrays, entry by entry, in terms of the argument arrays.

  Before the region the host builds, from the arguments x : [B, 4], w1 : [50, 4], b1 : [50], w2 : [2, 50], b2 : [2]:
    * xt : [4, B], the transpose of x set over a zero array of its own shape — every entry is overwritten, so
      xt (s, b) = x (b, s);
    * w1p : [56, 4], w1 set into the leading 50 rows of a zero array: w1p (h, s) = w1 (h, s) for h < 50, else 0;
    * b1p : [56, 1], b1 set down the leading 50 rows of a zero column;
    * w2p : [2, 56], w2 set into the leading 50 columns of a zero array;
    * b2p : [2, 1], b2 as a column.
  Each set is a scatter whose index words are all zero (a broadcast zero word, two of them side by side, or no
  word at all), so its windows sit at the origin.
-/
import proofs.«145514_g2000301263756867_pallasbulk_1232_3_alg».proof.Proof.Gen.KernelIdeal.Frame
import proofs.«145514_g2000301263756867_pallasbulk_1232_3_alg».proof.Proof.LibCornerSet
import proofs.«145514_g2000301263756867_pallasbulk_1232_3_alg».proof.Proof.PolicySpec
import Idealize.ShloMosaic.Lib.StableHlo.Run
import Idealize.ShloMosaic.Lib.ValueLayout
import Idealize.ShloMosaic.PureOps.Ideal.Laws

set_option maxRecDepth 16384

noncomputable section

namespace Cert.KernelIdeal.Entry

open Idealize.ShloMosaic Idealize.ShloMosaic.ValueIdx Idealize.ShloMosaic.TcCoe Idealize.SL.Sem
open Cert.KernelIdeal Cert.KernelIdeal.Gen Cert.PolicySpec

variable (m : (ℓ : Loc nD τ sig) → Buf (Elt Ideal) ℓ)

/-! ## The index words are zero -/

theorem words1 (k : S1.Idx) : broadcastInDim S1 ![] bcast_S_S1 (constantI S_ 32 0#32) k = 0#32 := rfl

theorem words2 (k : S2.Idx) :
    concatenate S2 0 [⟨S1, broadcastInDim S1 ![] bcast_S_S1 (constantI S_ 32 0#32)⟩,
      ⟨S1, broadcastInDim S1 ![] bcast_S_S1 (constantI S_ 32 0#32)⟩] concatenates_S1_S1_S2_d0 k = 0#32 := by
  obtain ⟨e, rfl⟩ : ∃ e, k = ix1 e := ⟨k 0, eq_ix1 k⟩
  fin_cases e <;> rfl

theorem words0 (k : S0.Idx) : (emptyVec S0 hz_S0 : IVec S0 32) k = 0#32 := (k 0).elim0

/-! ## Which window coordinate each operand axis gets -/

theorem win_w1_0 (j : S50x4.Idx) : scatter_S56x4_S1_S50x4_01_n_0_0.window j 0 = (j 0).val := by
  unfold ScatterDims.window; rw [dif_pos (by decide)]; rfl
theorem win_w1_1 (j : S50x4.Idx) : scatter_S56x4_S1_S50x4_01_n_0_0.window j 1 = (j 1).val := by
  unfold ScatterDims.window; rw [dif_pos (by decide)]; rfl
theorem win_b1_0 (j : S50.Idx) : scatter_S56x1_S2_S50_0_1_01_0.window j 0 = (j 0).val := by
  unfold ScatterDims.window; rw [dif_pos (by decide)]; rfl
theorem win_b1_1 (j : S50.Idx) : scatter_S56x1_S2_S50_0_1_01_0.window j 1 = 0 := by
  unfold ScatterDims.window; rw [dif_neg (by decide)]
theorem win_w2_0 (j : S2x50.Idx) : scatter_S2x56_S1_S2x50_01_n_1_0.window j 0 = (j 0).val := by
  unfold ScatterDims.window; rw [dif_pos (by decide)]; rfl
theorem win_w2_1 (j : S2x50.Idx) : scatter_S2x56_S1_S2x50_01_n_1_0.window j 1 = (j 1).val := by
  unfold ScatterDims.window; rw [dif_pos (by decide)]; rfl
theorem win_xt_0 (j : S4x2097152.Idx) : scatter_S4x2097152_S0_S4x2097152_01_n_n_0.window j 0 = (j 0).val := by
  unfold ScatterDims.window; rw [dif_pos (by decide)]; rfl
theorem win_xt_1 (j : S4x2097152.Idx) : scatter_S4x2097152_S0_S4x2097152_01_n_n_0.window j 1 = (j 1).val := by
  unfold ScatterDims.window; rw [dif_pos (by decide)]; rfl

/-! ## The five arrays as the host operations' terms -/

section Terms

-- in this section a scatter is only a function of its three operands; what it computes is read in the next section
attribute [local irreducible] Host.scatter

/-- Carrying an array of the batch operand's type to its buffer's type changes nothing. -/
theorem toBuf_xt (X : S4x2097152.Idx → EReal) :
    (StableHlo.TRef.of main_call0_v14 : StableHlo.TRef sig ⟨S4x2097152, .f32⟩).toBuf (Val := Elt Ideal) X = X := rfl

theorem xt_term (c : Dev nD) : (V m c main_call0_v14 : S4x2097152.Idx → EReal)
    = Host.scatter scatter_S4x2097152_S0_S4x2097152_01_n_n_0 (fun _ b => b)
        (broadcastInDim S4x2097152 ![] bcast_S_S4x2097152 (constant (F := Ideal) S_ .f32 0x00000000#32))
        (emptyVec S0 hz_S0 : IVec S0 32)
        (transpose S4x2097152 [1, 0] (m ((c.tc : Thread nD τ).loc main_arg0)) transposes_S2097152x4_S4x2097152_1_0) := by
  show StableHlo.after (hostOps0 (F := Ideal)) (fun b => m (c, b)) (Proc.devRef .tc main_call0_v14) = _
  after_results
  refine (toBuf_xt _).trans ?_
  refine congr (congr (congrArg (Host.scatter scatter_S4x2097152_S0_S4x2097152_01_n_n_0 (fun _ b => b)) ?_) ?_) ?_
  · rfl
  · rfl
  · rfl

theorem w1p_term (c : Dev nD) : (V m c main_call0_v2 : S56x4.Idx → EReal)
    = Host.scatter scatter_S56x4_S1_S50x4_01_n_0_0 (fun _ b => b)
        (broadcastInDim S56x4 ![] bcast_S_S56x4 (constant (F := Ideal) S_ .f32 0x00000000#32))
        (broadcastInDim S1 ![] bcast_S_S1 (constantI S_ 32 0#32))
        (m ((c.tc : Thread nD τ).loc main_arg1)) := by
  show StableHlo.after (hostOps0 (F := Ideal)) (fun b => m (c, b)) (Proc.devRef .tc main_call0_v2) = _
  after_results
  rfl

theorem b1p_term (c : Dev nD) : (V m c main_call0_v7 : S56x1.Idx → EReal)
    = Host.scatter scatter_S56x1_S2_S50_0_1_01_0 (fun _ b => b)
        (broadcastInDim S56x1 ![] bcast_S_S56x1 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (m ((c.tc : Thread nD τ).loc main_arg2)) := by
  show StableHlo.after (hostOps0 (F := Ideal)) (fun b => m (c, b)) (Proc.devRef .tc main_call0_v7) = _
  after_results
  rfl

theorem w2p_term (c : Dev nD) : (V m c main_call0_v10 : S2x56.Idx → EReal)
    = Host.scatter scatter_S2x56_S1_S2x50_01_n_1_0 (fun _ b => b)
        (broadcastInDim S2x56 ![] bcast_S_S2x56 (constant (F := Ideal) S_ .f32 0x00000000#32))
        (broadcastInDim S1 ![] bcast_S_S1 (constantI S_ 32 0#32))
        (m ((c.tc : Thread nD τ).loc main_arg3)) := by
  show StableHlo.after (hostOps0 (F := Ideal)) (fun b => m (c, b)) (Proc.devRef .tc main_call0_v10) = _
  after_results
  rfl

theorem b2p_term (c : Dev nD) : (V m c main_call0_v11 : S2x1.Idx → EReal)
    = broadcastInDim S2x1 ![0] bcast_S2_S2x1_0 (m ((c.tc : Thread nD τ).loc main_arg4)) := by
  show StableHlo.after (hostOps0 (F := Ideal)) (fun b => m (c, b)) (Proc.devRef .tc main_call0_v11) = _
  after_results
  rfl

end Terms

/-! ## The five arrays at an entry -/

/-- The transposed batch: entry (s, b) is x (b, s). -/
theorem xt_apply (c : Dev nD) (s : Fin 4) (b : Fin 2097152) :
    (V m c main_call0_v14 : S4x2097152.Idx → EReal) (ix2 s b) = (m ((c.tc : Thread nD τ).loc main_arg0) : S2097152x4.Idx → EReal) (ix2 b s) := by
  rw [xt_term m c, Cert.Lib.CornerSet.corner2 (le_refl 4) (le_refl 2097152) scatter_S4x2097152_S0_S4x2097152_01_n_n_0
    win_xt_0 win_xt_1 _ _ words0 _ s b, dif_pos ⟨s.isLt, b.isLt⟩]
  exact transpose_ix2_apply _ _ s b

/-- The first layer's weights, padded. -/
theorem w1p_apply (c : Dev nD) (h : Fin 56) (s : Fin 4) :
    (V m c main_call0_v2 : S56x4.Idx → EReal) (ix2 h s) = padW1 (m ((c.tc : Thread nD τ).loc main_arg1)) h s := by
  rw [w1p_term m c, Cert.Lib.CornerSet.corner2 (by decide : 50 ≤ 56) (le_refl 4) scatter_S56x4_S1_S50x4_01_n_0_0
    win_w1_0 win_w1_1 _ _ words1 _ h s]
  unfold padW1
  by_cases hh : h.val < 50
  · rw [dif_pos ⟨hh, s.isLt⟩, dif_pos hh]
  · rw [dif_neg (fun hc => hh hc.1), dif_neg hh]
    exact Ideal.ofBits_zero_f32

/-- The first layer's bias, padded, as a column. -/
theorem b1p_apply (c : Dev nD) (h : Fin 56) (z : Fin 1) :
    (V m c main_call0_v7 : S56x1.Idx → EReal) (ix2 h z) = padB1 (m ((c.tc : Thread nD τ).loc main_arg2)) h := by
  rw [b1p_term m c, Cert.Lib.CornerSet.cornerCol (by decide : 50 ≤ 56) scatter_S56x1_S2_S50_0_1_01_0
    win_b1_0 win_b1_1 _ _ words2 _ h z]
  unfold padB1
  by_cases hh : h.val < 50
  · rw [dif_pos hh, dif_pos hh]
  · rw [dif_neg hh, dif_neg hh]
    exact Ideal.ofBits_zero_f32

/-- The second layer's weights, padded. -/
theorem w2p_apply (c : Dev nD) (a : Fin 2) (h : Fin 56) :
    (V m c main_call0_v10 : S2x56.Idx → EReal) (ix2 a h) = padW2 (m ((c.tc : Thread nD τ).loc main_arg3)) a h := by
  rw [w2p_term m c, Cert.Lib.CornerSet.corner2 (le_refl 2) (by decide : 50 ≤ 56) scatter_S2x56_S1_S2x50_01_n_1_0
    win_w2_0 win_w2_1 _ _ words1 _ a h]
  unfold padW2
  by_cases hh : h.val < 50
  · rw [dif_pos ⟨a.isLt, hh⟩, dif_pos hh]
  · rw [dif_neg (fun hc => hh hc.2), dif_neg hh]
    exact Ideal.ofBits_zero_f32

/-- The second layer's bias as a column. -/
theorem b2p_apply (c : Dev nD) (a : Fin 2) (z : Fin 1) :
    (V m c main_call0_v11 : S2x1.Idx → EReal) (ix2 a z) = (m ((c.tc : Thread nD τ).loc main_arg4) : S2.Idx → EReal) (ix1 a) := by
  rw [b2p_term m c]
  exact broadcastInDim_apply _ _ _ _ (ix1 a) fun ax => by
    match ax with
    | ⟨0, _⟩ => rfl

end Cert.KernelIdeal.Entry

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibMlpBlock.lean ====
/-
  One block of a two-layer perceptron with the batch along the columns, read at an entry, at the ideal values.

  For weights `w1 : [H, S]`, a block of transposed inputs `xt : [S, C]`, a bias column `b1 : [H, 1]`, weights
  `w2 : [A, H]` and a bias column `b2 : [A, 1]`, the block
      w2 · tanh (w1 · xt + b1) + b2
  — both products taken into a zero accumulator, both bias columns stretched across the C columns — holds at entry
  (a, r) the number
      ∑ h, w2 (a, h) · tanh (∑ s, w1 (h, s) · xt (s, r) + b1 (h, 0)) + b2 (a, 0).
  The extents H, S, C, A are symbolic.
-/
import proofs.«145514_g2000301263756867_pallasbulk_1232_3_alg».proof.Proof.LibPlainDot
import Idealize.ShloMosaic.Lib.Pipeline.Value

noncomputable section

namespace Cert.Lib.MlpBlock

open Idealize.ShloMosaic Idealize.ShloMosaic.ValueIdx Cert.Lib.PlainDot
open scoped BigOperators

/-- The left operand's index of a product, at an output entry given by coordinates. -/
theorem rowIdx_ix2 {R K C : ℕ} (r : Fin R) (c : Fin C) (k : Fin K) :
    rowIdx (ix2 r c) k = ix2 r k := by
  funext a
  match a with
  | ⟨0, _⟩ => rfl
  | ⟨1, _⟩ => rfl

/-- The right operand's index of a product, at an output entry given by coordinates. -/
theorem colIdx_ix2 {R K C : ℕ} (r : Fin R) (c : Fin C) (k : Fin K) :
    colIdx (R := R) (ix2 r c) k = ix2 k c := by
  funext a
  match a with
  | ⟨0, _⟩ => rfl
  | ⟨1, _⟩ => rfl

/-- A one-column matrix stretched across `b` columns reads, at (p, c), the column at row p. -/
theorem stretch_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => rfl

/-- A product into the zero accumulator at an entry given by coordinates: the sum over the shared axis. -/
theorem matmul_zero_ix2 {R K C : ℕ} (d : DotDims ⟨2, ![R, K]⟩ ⟨2, ![K, C]⟩ ⟨2, ![R, C]⟩)
    (hd : d = DotDims.plain R K C) (x : FVec Ideal ⟨2, ![R, K]⟩ .f32) (y : FVec Ideal ⟨2, ![K, C]⟩ .f32)
    (r : Fin R) (c : Fin C) :
    matmul d none x y (constant ⟨2, ![R, C]⟩ .f32 0x00000000#32) (ix2 r c) = ∑ k : Fin K, x (ix2 r k) * y (ix2 k c) := by
  refine (matmul_zero_apply d hd none x y (ix2 r c)).trans ?_
  unfold mm
  refine Finset.sum_congr rfl fun k _ => ?_
  rw [rowIdx_ix2, colIdx_ix2]

/-- The block at entry (a, r). -/
theorem block_apply {H S C A : ℕ}
    (d1 : DotDims ⟨2, ![H, S]⟩ ⟨2, ![S, C]⟩ ⟨2, ![H, C]⟩) (hd1 : d1 = DotDims.plain H S C)
    (d2 : DotDims ⟨2, ![A, H]⟩ ⟨2, ![H, C]⟩ ⟨2, ![A, C]⟩) (hd2 : d2 = DotDims.plain A H C)
    (hb1 : (⟨2, ![H, 1]⟩ : Shape).Broadcasts ⟨2, ![H, C]⟩) (hb2 : (⟨2, ![A, 1]⟩ : Shape).Broadcasts ⟨2, ![A, C]⟩)
    (w1 : FVec Ideal ⟨2, ![H, S]⟩ .f32) (xt : FVec Ideal ⟨2, ![S, C]⟩ .f32) (b1 : FVec Ideal ⟨2, ![H, 1]⟩ .f32)
    (w2 : FVec Ideal ⟨2, ![A, H]⟩ .f32) (b2 : FVec Ideal ⟨2, ![A, 1]⟩ .f32) (a : Fin A) (r : Fin C) :
    addf (matmul d2 none w2
        (tanh (addf (matmul d1 none w1 xt (constant ⟨2, ![H, C]⟩ .f32 0x00000000#32)) (broadcastTo ⟨2, ![H, C]⟩ b1 hb1)))
        (constant ⟨2, ![A, C]⟩ .f32 0x00000000#32)) (broadcastTo ⟨2, ![A, C]⟩ b2 hb2) (ix2 a r)
      = ∑ h : Fin H, w2 (ix2 a h) * Ideal.tanh (∑ s : Fin S, w1 (ix2 h s) * xt (ix2 s r) + b1 (ix2 h (0 : Fin 1)))
          + b2 (ix2 a (0 : Fin 1)) := by
  show matmul d2 none w2 _ (constant ⟨2, ![A, C]⟩ .f32 0x00000000#32) (ix2 a r) + broadcastTo ⟨2, ![A, C]⟩ b2 hb2 (ix2 a r) = _
  rw [matmul_zero_ix2 d2 hd2, stretch_col_apply]
  congr 1
  refine Finset.sum_congr rfl fun h _ => ?_
  congr 1
  show Ideal.tanh (matmul d1 none w1 xt (constant ⟨2, ![H, C]⟩ .f32 0x00000000#32) (ix2 h r)
    + broadcastTo ⟨2, ![H, C]⟩ b1 hb1 (ix2 h r)) = _
  rw [matmul_zero_ix2 d1 hd1, stretch_col_apply]

end Cert.Lib.MlpBlock

end
-- ==== Proof.KernelValue.lean ====
/-
  What the kernel's program computes: its result array is the policy network of the argument arrays.

  The region runs over 64 grid points. Point t reads columns [32768 t, 32768 (t + 1)) of the transposed batch
  xt : [4, B] and the four parameter arrays whole, and writes the same columns of the region's output yt : [2, B]:
      yt (a, 32768 t + r) = ∑ h, w2p (a, h) · tanh (∑ s, w1p (h, s) · xt (s, 32768 t + r) + b1p (h, 0)) + b2p (a, 0).
  With the entries of xt, w1p, b1p, w2p, b2p read off the arguments, this is the score of action a for batch row
  32768 t + r. The 64 column blocks tile the output, so yt (a, b) is the score of action a for row b, for every b; the
  host transposes yt after the region, and the result (b, a) is that score.
-/
import proofs.«145514_g2000301263756867_pallasbulk_1232_3_alg».proof.Proof.KernelEntry
import proofs.«145514_g2000301263756867_pallasbulk_1232_3_alg».proof.Proof.LibMlpBlock
import Idealize.ShloMosaic.Lib.Pipeline.Value

set_option maxRecDepth 16384

noncomputable section

namespace Cert.KernelIdeal.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Entry Cert.PolicySpec
open scoped BigOperators

variable (m : (ℓ : Loc nD τ sig) → Buf (Elt Ideal) ℓ) (ρ : Dev nD → PrngReg)

/-- The region's output array as a function of the arguments: entry (a, b) is action a's score for batch row b. -/
def scoresT (c : Dev nD) : S2x2097152.Idx → EReal := fun i =>
  score (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (i 1) (i 0)

/-! ## The body's stored value at an entry -/

/-- The stored block at (a, r), from the five loaded blocks. -/
theorem stored_apply (w1 : Vec Ideal S56x4 .f32) (xt : Vec Ideal S4x32768 .f32) (b1 : Vec Ideal S56x1 .f32)
    (w2 : Vec Ideal S2x56 .f32) (b2 : Vec Ideal S2x1 .f32) (a : Fin 2) (r : Fin 32768) :
    k0_pay1 w1 xt b1 w2 b2 (ix2 a r)
      = ∑ h : Fin 56, w2 (ix2 a h) * Ideal.tanh (∑ s : Fin 4, w1 (ix2 h s) * xt (ix2 s r) + b1 (ix2 h (0 : Fin 1)))
          + b2 (ix2 a (0 : Fin 1)) := by
  have e := Cert.Lib.MlpBlock.block_apply dot_S56x4_S4x32768_S56x32768_1_0_0_1_n_n rfl
    dot_S2x56_S56x32768_S2x32768_1_0_0_1_n_n rfl broadcasts_S56x1_S56x32768 broadcasts_S2x1_S2x32768 w1 xt b1 w2 b2 a r
  unfold k0_pay1
  rw [shapeCast_self w1, shapeCast_self xt, shapeCast_self b1, shapeCast_self w2, shapeCast_self b2]
  exact e

/-! ## Where the blocks sit -/

theorem origin : (![0, 0] : Fin 2 → Nat) = fun _ => 0 := funext fun a => by fin_cases a <;> rfl

/-- The printed index maps over the grid: the batch block and the output block are block t along the columns; the
    parameter arrays are read whole. -/
theorem block_index : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem point_lt (t : Fin cfg0.N) : t.val < 64 := lt_of_lt_of_eq t.isLt N_0

/-- Column r of block t is column 32768 t + r of the array. -/
theorem col_lt (t : Fin cfg0.N) (r : Fin 32768) : t.val * 32768 + r.val < 2097152 := by
  have := point_lt t
  have := r.isLt
  omega

/-! ## A block of an array of each operand's shape, read at an entry -/

theorem emb_xt (t : Fin cfg0.N) (s : Fin 4) (r : Fin 32768) :
    ((cfg0.win 0).blk t).view.emb (ix2 s r) = ix2 s ⟨t.val * 32768 + r.val, col_lt t r⟩ := by
  obtain ⟨e0, e1, -⟩ := block_index t
  funext ax
  apply Fin.ext
  match ax with
  | ⟨0, _⟩ => show win0_0.index t (0 : Fin 2) * 4 + 1 * s.val = s.val; omega
  | ⟨1, _⟩ => show win0_0.index t (1 : Fin 2) * 32768 + 1 * r.val = t.val * 32768 + r.val; omega

theorem read_xt (A : S4x2097152.Idx → EReal) (t : Fin cfg0.N) (s : Fin 4) (r : Fin 32768) :
    ((cfg0.win 0).blk t).view.read (Elt Ideal) A (ix2 s r) = A (ix2 s ⟨t.val * 32768 + r.val, col_lt t r⟩) := by
  show A (((cfg0.win 0).blk t).view.emb (ix2 s r)) = _
  rw [emb_xt]

theorem emb_w1 (t : Fin cfg0.N) (h : Fin 56) (s : Fin 4) :
    ((cfg0.win 1).blk t).view.emb (ix2 h s) = ix2 h s := by
  obtain ⟨-, -, e0, e1, -⟩ := block_index t
  funext ax
  apply Fin.ext
  match ax with
  | ⟨0, _⟩ => show win0_1.index t (0 : Fin 2) * 56 + 1 * h.val = h.val; omega
  | ⟨1, _⟩ => show win0_1.index t (1 : Fin 2) * 4 + 1 * s.val = s.val; omega

theorem read_w1 (A : S56x4.Idx → EReal) (t : Fin cfg0.N) (h : Fin 56) (s : Fin 4) :
    ((cfg0.win 1).blk t).view.read (Elt Ideal) A (ix2 h s) = A (ix2 h s) := by
  show A (((cfg0.win 1).blk t).view.emb (ix2 h s)) = _
  rw [emb_w1]

theorem emb_b1 (t : Fin cfg0.N) (h : Fin 56) (z : Fin 1) :
    ((cfg0.win 2).blk t).view.emb (ix2 h z) = ix2 h z := by
  obtain ⟨-, -, -, -, e0, e1, -⟩ := block_index t
  funext ax
  apply Fin.ext
  match ax with
  | ⟨0, _⟩ => show win0_2.index t (0 : Fin 2) * 56 + 1 * h.val = h.val; omega
  | ⟨1, _⟩ => show win0_2.index t (1 : Fin 2) * 1 + 1 * z.val = z.val; omega

theorem read_b1 (A : S56x1.Idx → EReal) (t : Fin cfg0.N) (h : Fin 56) (z : Fin 1) :
    ((cfg0.win 2).blk t).view.read (Elt Ideal) A (ix2 h z) = A (ix2 h z) := by
  show A (((cfg0.win 2).blk t).view.emb (ix2 h z)) = _
  rw [emb_b1]

theorem emb_w2 (t : Fin cfg0.N) (a : Fin 2) (h : Fin 56) :
    ((cfg0.win 3).blk t).view.emb (ix2 a h) = ix2 a h := by
  obtain ⟨-, -, -, -, -, -, e0, e1, -⟩ := block_index t
  funext ax
  apply Fin.ext
  match ax with
  | ⟨0, _⟩ => show win0_3.index t (0 : Fin 2) * 2 + 1 * a.val = a.val; omega
  | ⟨1, _⟩ => show win0_3.index t (1 : Fin 2) * 56 + 1 * h.val = h.val; omega

theorem read_w2 (A : S2x56.Idx → EReal) (t : Fin cfg0.N) (a : Fin 2) (h : Fin 56) :
    ((cfg0.win 3).blk t).view.read (Elt Ideal) A (ix2 a h) = A (ix2 a h) := by
  show A (((cfg0.win 3).blk t).view.emb (ix2 a h)) = _
  rw [emb_w2]

theorem emb_b2 (t : Fin cfg0.N) (a : Fin 2) (z : Fin 1) :
    ((cfg0.win 4).blk t).view.emb (ix2 a z) = ix2 a z := by
  obtain ⟨-, -, -, -, -, -, -, -, e0, e1, -⟩ := block_index t
  funext ax
  apply Fin.ext
  match ax with
  | ⟨0, _⟩ => show win0_4.index t (0 : Fin 2) * 2 + 1 * a.val = a.val; omega
  | ⟨1, _⟩ => show win0_4.index t (1 : Fin 2) * 1 + 1 * z.val = z.val; omega

theorem read_b2 (A : S2x1.Idx → EReal) (t : Fin cfg0.N) (a : Fin 2) (z : Fin 1) :
    ((cfg0.win 4).blk t).view.read (Elt Ideal) A (ix2 a z) = A (ix2 a z) := by
  show A (((cfg0.win 4).blk t).view.emb (ix2 a z)) = _
  rw [emb_b2]

/-! ## The five input blocks at an entry, in terms of the arguments -/

theorem blk_xt (c : Dev nD) (t : Fin cfg0.N) (s : Fin 4) (r : Fin 32768) :
    iblk m c 0 t (ix2 s r)
      = (m ((c.tc : Thread nD τ).loc main_arg0) : S2097152x4.Idx → EReal) (ix2 ⟨t.val * 32768 + r.val, col_lt t r⟩ s) :=
  (read_xt (V m c main_call0_v14) t s r).trans (xt_apply m c s _)

theorem blk_w1 (c : Dev nD) (t : Fin cfg0.N) (h : Fin 56) (s : Fin 4) :
    iblk m c 1 t (ix2 h s) = padW1 (m ((c.tc : Thread nD τ).loc main_arg1)) h s :=
  (read_w1 (V m c main_call0_v2) t h s).trans (w1p_apply m c h s)

theorem blk_b1 (c : Dev nD) (t : Fin cfg0.N) (h : Fin 56) (z : Fin 1) :
    iblk m c 2 t (ix2 h z) = padB1 (m ((c.tc : Thread nD τ).loc main_arg2)) h :=
  (read_b1 (V m c main_call0_v7) t h z).trans (b1p_apply m c h z)

theorem blk_w2 (c : Dev nD) (t : Fin cfg0.N) (a : Fin 2) (h : Fin 56) :
    iblk m c 3 t (ix2 a h) = padW2 (m ((c.tc : Thread nD τ).loc main_arg3)) a h :=
  (read_w2 (V m c main_call0_v10) t a h).trans (w2p_apply m c a h)

theorem blk_b2 (c : Dev nD) (t : Fin cfg0.N) (a : Fin 2) (z : Fin 1) :
    iblk m c 4 t (ix2 a z) = (m ((c.tc : Thread nD τ).loc main_arg4) : S2.Idx → EReal) (ix1 a) :=
  (read_b2 (V m c main_call0_v11) t a z).trans (b2p_apply m c a z)

/-! ## What a point writes back -/

/-- Point t writes back block t of `scoresT`. -/
theorem flushed_eq (c : Dev nD) (t : Fin cfg0.N) :
    (dats m 0 c).flushed 5 t = ((cfg0.win 5).blk t).view.read (Elt Ideal) (scoresT m c) := by
  show (cfg0.win 5).cut (grid0.coords t) ((dats m 0 c).after 5 t) = _
  rw [after0_5]
  unfold out0_5
  rw [View.canon_unit_zero origin]
  simp only [View.ld_unit_zero (S := S4x32768) origin, View.ld_unit_zero (S := S56x4) origin,
    View.ld_unit_zero (S := S56x1) origin, View.ld_unit_zero (S := S2x56) origin, View.ld_unit_zero (S := S2x1) origin]
  funext j
  obtain ⟨a, r, rfl⟩ : ∃ (a : Fin 2) (r : Fin 32768), j = ix2 a r := ⟨j 0, j 1, eq_ix2 j⟩
  have e : ((cfg0.win 5).blk t).view.emb (ix2 a r) = ix2 a ⟨t.val * 32768 + r.val, col_lt t r⟩ := by
    obtain ⟨-, -, -, -, -, -, -, -, -, -, e0, e1⟩ := block_index t
    funext ax
    apply Fin.ext
    match ax with
    | ⟨0, _⟩ => show win0_5.index t (0 : Fin 2) * 2 + 1 * a.val = a.val; omega
    | ⟨1, _⟩ => show win0_5.index t (1 : Fin 2) * 32768 + 1 * r.val = t.val * 32768 + r.val; omega
  show k0_pay1 (iblk m c 1 t) (iblk m c 0 t) (iblk m c 2 t) (iblk m c 3 t) (iblk m c 4 t) (ix2 a r)
    = scoresT m c (((cfg0.win 5).blk t).view.emb (ix2 a r))
  rw [e]
  refine (stored_apply _ _ _ _ _ a r).trans ?_
  show _ = score _ _ _ _ _ ⟨t.val * 32768 + r.val, col_lt t r⟩ a
  unfold score
  simp only [blk_xt m c t, blk_w1 m c t, blk_b1 m c t, blk_w2 m c t, blk_b2 m c t]

/-! ## The array after the run -/

theorem mem_blk (t : Fin cfg0.N) (i : S2x2097152.Idx) :
    i ∈ ((cfg0.win 5).blk t).view.set ↔ ∀ a : Fin 2, win0_5.index t a * S2x32768.size a ≤ (i a).val
      ∧ (i a).val < win0_5.index t a * S2x32768.size a + S2x32768.size a := by
  show i ∈ ((View.whole main_call0_v15).slice (win0_5.rect t)).set ↔ _
  rw [View.set_slice_whole, Rect.mem_set_unit]
  exact Iff.rfl

/-- Every entry of the output lies in some point's block: column b in block b / 32768. -/
theorem cover (i : S2x2097152.Idx) :
    ∃ t : Fin cfg0.N, (cfg0.win 5).flush t = true ∧ i ∈ ((cfg0.win 5).blk t).view.set := by
  have hi0 := idx2_lt0 i
  have hi1 := idx2_lt1 i
  have hN : cfg0.N = 64 := N_0
  have hq : (i 1).val / 32768 < cfg0.N := by rw [hN]; omega
  obtain ⟨-, -, -, -, -, -, -, -, -, -, e0, e1⟩ := block_index ⟨(i 1).val / 32768, hq⟩
  have e1' : win0_5.index ⟨(i 1).val / 32768, hq⟩ (1 : Fin 2) = (i 1).val / 32768 := e1
  refine ⟨⟨(i 1).val / 32768, hq⟩, flush0_5 _, ?_⟩
  rw [mem_blk]
  intro a
  match a with
  | ⟨0, _⟩ =>
    show win0_5.index ⟨(i 1).val / 32768, hq⟩ (0 : Fin 2) * 2 ≤ (i 0).val
      ∧ (i 0).val < win0_5.index ⟨(i 1).val / 32768, hq⟩ (0 : Fin 2) * 2 + 2
    omega
  | ⟨1, _⟩ =>
    show win0_5.index ⟨(i 1).val / 32768, hq⟩ (1 : Fin 2) * 32768 ≤ (i 1).val
      ∧ (i 1).val < win0_5.index ⟨(i 1).val / 32768, hq⟩ (1 : Fin 2) * 32768 + 32768
    omega

/-- The region's output array after the run. -/
theorem final (c : Dev nD) : (dats m 0 c).arrAt 5 cfg0.N = scoresT m c :=
  (dats m 0 c).arrAt_eq_of_cover 5 (scoresT m c) (fun t _ => flushed_eq m c t) cover

/-! ## After the region: the transpose -/

theorem result_eq (c : Dev nD) :
    (Pipeline.afterTail₀ cfgs (dats m) 0 (V0 m) [hostOps1 (F := Ideal)] c main_v0 : S2097152x2.Idx → EReal)
      = policy (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Pipeline.afterTail₀
  show StableHlo.after (hostOps1 (F := Ideal)) _ (Proc.devRef .tc main_v0) = _
  after_results
  show transpose S2097152x2 [1, 0]
    (Pipeline.withArrays (cfgs 0).spec c (V0 m c) (fun w => (dats m 0 c).arrAt w (cfgs 0).N) (Proc.devRef .tc main_call0_v15))
    transposes_S2x2097152_S2097152x2_1_0 = _
  rw [show Pipeline.withArrays (cfgs 0).spec c (V0 m c) (fun w => (dats m 0 c).arrAt w (cfgs 0).N)
      (Proc.devRef .tc main_call0_v15) = scoresT m c from
    (Pipeline.withArrays_arr spec0 launch0.win.arr_inj c _ _ 5).trans (final m c)]
  funext i
  obtain ⟨b, a, rfl⟩ : ∃ (b : Fin 2097152) (a : Fin 2), i = ix2 b a := ⟨i 0, i 1, eq_ix2 i⟩
  rw [transpose_ix2_apply]
  rfl

/-! ## The run -/

/-- Every weakly fair execution of the kernel's program terminates with the result array at the policy network of the
    argument arrays, and the argument arrays unchanged. -/
theorem run : θ_run defs (onTc (τ := τ) (main (F := Ideal))) ⟨m, fun _ => 0, ρ⟩ fun r => ∀ c : Dev nD,
      r.2.mem ((c.tc : Thread nD τ).loc main_v0)
        = policy (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Val

end
-- ==== Proof.ReferenceEntry.lean ====
/-
  What the reference's one region finds in its five operand arrays, entry by entry, in terms of the argument arrays.

  Before the region the host builds, from the arguments x : [B, 4], w1 : [50, 4], b1 : [50], w2 : [2, 50], b2 : [2]:
    * xt : [8, B], the transpose of x set into the leading 4 rows of a zero array: xt (s, b) = x (b, s) for s < 4,
      else 0;
    * w1p : [56, 8], w1 set into the leading 50 rows and 4 columns of a zero array;
    * b1p : [56, 1], b1 set down the leading 50 rows of a zero column;
    * w2p : [8, 56], w2 set into the leading 2 rows and 50 columns of a zero array;
    * b2p : [8, 1], b2 set down the leading 2 rows of a zero column.
  Each set is a scatter whose index words are all zero, so its windows sit at the origin.
-/
import proofs.«145514_g2000301263756867_pallasbulk_1232_3_alg».proof.Proof.Gen.ReferenceIdeal.Frame
import proofs.«145514_g2000301263756867_pallasbulk_1232_3_alg».proof.Proof.LibCornerSet
import proofs.«145514_g2000301263756867_pallasbulk_1232_3_alg».proof.Proof.PolicySpec
import Idealize.ShloMosaic.Lib.StableHlo.Run
import Idealize.ShloMosaic.Lib.ValueLayout
import Idealize.ShloMosaic.PureOps.Ideal.Laws

set_option maxRecDepth 16384

noncomputable section

namespace Cert.ReferenceIdeal.Entry

open Idealize.ShloMosaic Idealize.ShloMosaic.ValueIdx Idealize.ShloMosaic.TcCoe Idealize.SL.Sem
open Cert.ReferenceIdeal Cert.ReferenceIdeal.Gen Cert.PolicySpec

variable (m : (ℓ : Loc nD τ sig) → Buf (Elt Ideal) ℓ)

/-! ## The index words are zero -/

theorem words1 (k : S1.Idx) : broadcastInDim S1 ![] bcast_S_S1 (constantI S_ 32 0#32) k = 0#32 := rfl

theorem words2 (k : S2.Idx) :
    concatenate S2 0 [⟨S1, broadcastInDim S1 ![] bcast_S_S1 (constantI S_ 32 0#32)⟩,
      ⟨S1, broadcastInDim S1 ![] bcast_S_S1 (constantI S_ 32 0#32)⟩] concatenates_S1_S1_S2_d0 k = 0#32 := by
  obtain ⟨e, rfl⟩ : ∃ e, k = ix1 e := ⟨k 0, eq_ix1 k⟩
  fin_cases e <;> rfl

/-! ## Which window coordinate each operand axis gets -/

theorem win_w1_0 (j : S50x4.Idx) : scatter_S56x8_S2_S50x4_01_n_01_0.window j 0 = (j 0).val := by
  unfold ScatterDims.window; rw [dif_pos (by decide)]; rfl
theorem win_w1_1 (j : S50x4.Idx) : scatter_S56x8_S2_S50x4_01_n_01_0.window j 1 = (j 1).val := by
  unfold ScatterDims.window; rw [dif_pos (by decide)]; rfl
theorem win_b1_0 (j : S50.Idx) : scatter_S56x1_S2_S50_0_1_01_0.window j 0 = (j 0).val := by
  unfold ScatterDims.window; rw [dif_pos (by decide)]; rfl
theorem win_b1_1 (j : S50.Idx) : scatter_S56x1_S2_S50_0_1_01_0.window j 1 = 0 := by
  unfold ScatterDims.window; rw [dif_neg (by decide)]
theorem win_w2_0 (j : S2x50.Idx) : scatter_S8x56_S2_S2x50_01_n_01_0.window j 0 = (j 0).val := by
  unfold ScatterDims.window; rw [dif_pos (by decide)]; rfl
theorem win_w2_1 (j : S2x50.Idx) : scatter_S8x56_S2_S2x50_01_n_01_0.window j 1 = (j 1).val := by
  unfold ScatterDims.window; rw [dif_pos (by decide)]; rfl
theorem win_b2_0 (j : S2.Idx) : scatter_S8x1_S2_S2_0_1_01_0.window j 0 = (j 0).val := by
  unfold ScatterDims.window; rw [dif_pos (by decide)]; rfl
theorem win_b2_1 (j : S2.Idx) : scatter_S8x1_S2_S2_0_1_01_0.window j 1 = 0 := by
  unfold ScatterDims.window; rw [dif_neg (by decide)]
theorem win_xt_0 (j : S4x2097152.Idx) : scatter_S8x2097152_S1_S4x2097152_01_n_0_0.window j 0 = (j 0).val := by
  unfold ScatterDims.window; rw [dif_pos (by decide)]; rfl
theorem win_xt_1 (j : S4x2097152.Idx) : scatter_S8x2097152_S1_S4x2097152_01_n_0_0.window j 1 = (j 1).val := by
  unfold ScatterDims.window; rw [dif_pos (by decide)]; rfl

/-! ## The five arrays as the host operations' terms -/

section Terms

-- in this section a scatter is only a function of its three operands; what it computes is read in the next section
attribute [local irreducible] Host.scatter

/-- Carrying an array of the batch operand's type to its buffer's type changes nothing. -/
theorem toBuf_xt (X : S8x2097152.Idx → EReal) :
    (StableHlo.TRef.of main_call0_v3 : StableHlo.TRef sig ⟨S8x2097152, .f32⟩).toBuf (Val := Elt Ideal) X = X := rfl

theorem xt_term (c : Dev nD) : (V m c main_call0_v3 : S8x2097152.Idx → EReal)
    = Host.scatter scatter_S8x2097152_S1_S4x2097152_01_n_0_0 (fun _ b => b)
        (broadcastInDim S8x2097152 ![] bcast_S_S8x2097152 (constant (F := Ideal) S_ .f32 0x00000000#32))
        (broadcastInDim S1 ![] bcast_S_S1 (constantI S_ 32 0#32))
        (transpose S4x2097152 [1, 0] (m ((c.tc : Thread nD τ).loc main_arg0)) transposes_S2097152x4_S4x2097152_1_0) := by
  show StableHlo.after (List.flatten [hostOps0 (F := Ideal), hostOps0_1 (F := Ideal)]) (fun b => m (c, b)) (Proc.devRef .tc main_call0_v3) = _
  simp only [hostOps0, hostOps0_1, List.flatten_cons, List.flatten_nil, List.append_nil, List.cons_append, List.nil_append]
  after_results
  refine (toBuf_xt _).trans ?_
  refine congr (congr (congrArg (Host.scatter scatter_S8x2097152_S1_S4x2097152_01_n_0_0 (fun _ b => b)) ?_) ?_) ?_
  · rfl
  · rfl
  · rfl

theorem w1p_term (c : Dev nD) : (V m c main_v4 : S56x8.Idx → EReal)
    = Host.scatter scatter_S56x8_S2_S50x4_01_n_01_0 (fun _ b => b)
        (broadcastInDim S56x8 ![] bcast_S_S56x8 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (m ((c.tc : Thread nD τ).loc main_arg1)) := by
  show StableHlo.after (List.flatten [hostOps0 (F := Ideal), hostOps0_1 (F := Ideal)]) (fun b => m (c, b)) (Proc.devRef .tc main_v4) = _
  simp only [hostOps0, hostOps0_1, List.flatten_cons, List.flatten_nil, List.append_nil, List.cons_append, List.nil_append]
  after_results

theorem b1p_term (c : Dev nD) : (V m c main_v9 : S56x1.Idx → EReal)
    = Host.scatter scatter_S56x1_S2_S50_0_1_01_0 (fun _ b => b)
        (broadcastInDim S56x1 ![] bcast_S_S56x1 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (m ((c.tc : Thread nD τ).loc main_arg2)) := by
  show StableHlo.after (List.flatten [hostOps0 (F := Ideal), hostOps0_1 (F := Ideal)]) (fun b => m (c, b)) (Proc.devRef .tc main_v9) = _
  simp only [hostOps0, hostOps0_1, List.flatten_cons, List.flatten_nil, List.append_nil, List.cons_append, List.nil_append]
  after_results

theorem w2p_term (c : Dev nD) : (V m c main_v14 : S8x56.Idx → EReal)
    = Host.scatter scatter_S8x56_S2_S2x50_01_n_01_0 (fun _ b => b)
        (broadcastInDim S8x56 ![] bcast_S_S8x56 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (m ((c.tc : Thread nD τ).loc main_arg3)) := by
  show StableHlo.after (List.flatten [hostOps0 (F := Ideal), hostOps0_1 (F := Ideal)]) (fun b => m (c, b)) (Proc.devRef .tc main_v14) = _
  simp only [hostOps0, hostOps0_1, List.flatten_cons, List.flatten_nil, List.append_nil, List.cons_append, List.nil_append]
  after_results

theorem b2p_term (c : Dev nD) : (V m c main_v19 : S8x1.Idx → EReal)
    = Host.scatter scatter_S8x1_S2_S2_0_1_01_0 (fun _ b => b)
        (broadcastInDim S8x1 ![] bcast_S_S8x1 (constant (F := Ideal) S_ .f32 0x00000000#32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (m ((c.tc : Thread nD τ).loc main_arg4)) := by
  show StableHlo.after (List.flatten [hostOps0 (F := Ideal), hostOps0_1 (F := Ideal)]) (fun b => m (c, b)) (Proc.devRef .tc main_v19) = _
  simp only [hostOps0, hostOps0_1, List.flatten_cons, List.flatten_nil, List.append_nil, List.cons_append, List.nil_append]
  after_results

end Terms

/-! ## The five arrays at an entry -/

/-- The transposed batch, padded to 8 state rows: entry (s, b) is x (b, s) for s < 4, else 0. -/
theorem xt_apply (c : Dev nD) (s : Fin 8) (b : Fin 2097152) :
    (V m c main_call0_v3 : S8x2097152.Idx → EReal) (ix2 s b)
      = if hs : s.val < 4 then (m ((c.tc : Thread nD τ).loc main_arg0) : S2097152x4.Idx → EReal) (ix2 b ⟨s.val, hs⟩) else (0 : EReal) := by
  rw [xt_term m c, Cert.Lib.CornerSet.corner2 (by decide : 4 ≤ 8) (le_refl 2097152) scatter_S8x2097152_S1_S4x2097152_01_n_0_0
    win_xt_0 win_xt_1 _ _ words1 _ s b]
  by_cases hs : s.val < 4
  · rw [dif_pos ⟨hs, b.isLt⟩, dif_pos hs]
    exact transpose_ix2_apply _ _ ⟨s.val, hs⟩ ⟨b.val, b.isLt⟩
  · rw [dif_neg (fun hc => hs hc.1), dif_neg hs]
    exact Ideal.ofBits_zero_f32

/-- The first layer's weights, padded to 56 hidden rows and 8 state columns. -/
theorem w1p_apply (c : Dev nD) (h : Fin 56) (s : Fin 8) :
    (V m c main_v4 : S56x8.Idx → EReal) (ix2 h s)
      = if hs : s.val < 4 then padW1 (m ((c.tc : Thread nD τ).loc main_arg1)) h ⟨s.val, hs⟩ else (0 : EReal) := by
  rw [w1p_term m c, Cert.Lib.CornerSet.corner2 (by decide : 50 ≤ 56) (by decide : 4 ≤ 8) scatter_S56x8_S2_S50x4_01_n_01_0
    win_w1_0 win_w1_1 _ _ words2 _ h s]
  unfold padW1
  by_cases hs : s.val < 4
  · rw [dif_pos hs]
    by_cases hh : h.val < 50
    · rw [dif_pos ⟨hh, hs⟩, dif_pos hh]
    · rw [dif_neg (fun hc => hh hc.1), dif_neg hh]
      exact Ideal.ofBits_zero_f32
  · rw [dif_neg (fun hc => hs hc.2), dif_neg hs]
    exact Ideal.ofBits_zero_f32

/-- The first layer's bias, padded, as a column. -/
theorem b1p_apply (c : Dev nD) (h : Fin 56) (z : Fin 1) :
    (V m c main_v9 : S56x1.Idx → EReal) (ix2 h z) = padB1 (m ((c.tc : Thread nD τ).loc main_arg2)) h := by
  rw [b1p_term m c, Cert.Lib.CornerSet.cornerCol (by decide : 50 ≤ 56) scatter_S56x1_S2_S50_0_1_01_0
    win_b1_0 win_b1_1 _ _ words2 _ h z]
  unfold padB1
  by_cases hh : h.val < 50
  · rw [dif_pos hh, dif_pos hh]
  · rw [dif_neg hh, dif_neg hh]
    exact Ideal.ofBits_zero_f32

/-- The second layer's weights, padded to 8 action rows and 56 hidden columns: on the two action rows they are the padded
    weights. -/
theorem w2p_apply (c : Dev nD) (a : Fin 2) (h : Fin 56) :
    (V m c main_v14 : S8x56.Idx → EReal) (ix2 (⟨a.val, by omega⟩ : Fin 8) h)
      = padW2 (m ((c.tc : Thread nD τ).loc main_arg3)) a h := by
  rw [w2p_term m c, Cert.Lib.CornerSet.corner2 (by decide : 2 ≤ 8) (by decide : 50 ≤ 56) scatter_S8x56_S2_S2x50_01_n_01_0
    win_w2_0 win_w2_1 _ _ words2 _ (⟨a.val, by omega⟩ : Fin 8) h]
  unfold padW2
  by_cases hh : h.val < 50
  · rw [dif_pos ⟨a.isLt, hh⟩, dif_pos hh]
  · rw [dif_neg (fun hc => hh hc.2), dif_neg hh]
    exact Ideal.ofBits_zero_f32

/-- The second layer's bias as a column padded to 8 action rows: on the two action rows it is the bias. -/
theorem b2p_apply (c : Dev nD) (a : Fin 2) (z : Fin 1) :
    (V m c main_v19 : S8x1.Idx → EReal) (ix2 (⟨a.val, by omega⟩ : Fin 8) z)
      = (m ((c.tc : Thread nD τ).loc main_arg4) : S2.Idx → EReal) (ix1 a) := by
  rw [b2p_term m c, Cert.Lib.CornerSet.cornerCol (by decide : 2 ≤ 8) scatter_S8x1_S2_S2_0_1_01_0
    win_b2_0 win_b2_1 _ _ words2 _ (⟨a.val, by omega⟩ : Fin 8) z, dif_pos a.isLt]

end Cert.ReferenceIdeal.Entry

end
-- ==== Proof.ReferenceValue.lean ====
/-
  What the reference's program computes: its result array is the policy network of the argument arrays.

  The region runs over 512 grid points. Point t reads columns [4096 t, 4096 (t + 1)) of the padded transposed batch
  xt : [8, B] and the four padded parameter arrays whole, and writes the same columns of the region's output
  yt : [8, B]:
      yt (a, 4096 t + r) = ∑ h, w2p (a, h) · tanh (∑ s < 8, w1p (h, s) · xt (s, 4096 t + r) + b1p (h, 0)) + b2p (a, 0).
  The 512 column blocks tile the output, so this holds at every entry. After the region the host keeps rows 0 and 1 and
  transposes. On those rows w2p and b2p are the padded second layer; the state sum over 8 terms has w1p (h, s) = 0 for
  s ≥ 4, and 0 · xt (s, b) = 0, so it is the sum over the 4 state coordinates with xt (s, b) = x (b, s): the result (b, a)
  is the score of action a for batch row b.
-/
import proofs.«145514_g2000301263756867_pallasbulk_1232_3_alg».proof.Proof.ReferenceEntry
import proofs.«145514_g2000301263756867_pallasbulk_1232_3_alg».proof.Proof.LibMlpBlock
import Idealize.ShloMosaic.Lib.Pipeline.Value

set_option maxRecDepth 16384

noncomputable section

namespace Cert.ReferenceIdeal.Val

open Idealize.ShloMosaic Idealize.ShloMosaic.ValueIdx Idealize.ShloMosaic.TcCoe Idealize.SL.Sem
open Idealize.ShloMosaic.Pipeline (Dat)
open Cert.ReferenceIdeal Cert.ReferenceIdeal.Gen Cert.ReferenceIdeal.Entry Cert.PolicySpec
open scoped BigOperators

variable (m : (ℓ : Loc nD τ sig) → Buf (Elt Ideal) ℓ) (ρ : Dev nD → PrngReg)

/-- The region's output array, all 8 rows: the wide formula of the five arrays the region finds. -/
def rawT (c : Dev nD) : S8x2097152.Idx → EReal :=
  wideScores (V m c main_v14) (V m c main_v4) (V m c main_call0_v3) (V m c main_v9) (V m c main_v19)

/-! ## The body's stored value at an entry -/

/-- The stored block at (a, r), from the five loaded blocks. -/
theorem stored_apply (xt : Vec Ideal S8x4096 .f32) (w1 : Vec Ideal S56x8 .f32) (b1 : Vec Ideal S56x1 .f32)
    (w2 : Vec Ideal S8x56 .f32) (b2 : Vec Ideal S8x1 .f32) (a : Fin 8) (r : Fin 4096) :
    k0_pay1 xt w1 b1 w2 b2 (ix2 a r)
      = ∑ h : Fin 56, w2 (ix2 a h) * Ideal.tanh (∑ s : Fin 8, w1 (ix2 h s) * xt (ix2 s r) + b1 (ix2 h (0 : Fin 1)))
          + b2 (ix2 a (0 : Fin 1)) := by
  have e := Cert.Lib.MlpBlock.block_apply dot_S56x8_S8x4096_S56x4096_1_0_0_1_n_n rfl
    dot_S8x56_S56x4096_S8x4096_1_0_0_1_n_n rfl broadcasts_S56x1_S56x4096 broadcasts_S8x1_S8x4096 w1 xt b1 w2 b2 a r
  unfold k0_pay1
  rw [shapeCast_self xt, shapeCast_self w1, shapeCast_self b1, shapeCast_self w2, shapeCast_self b2]
  exact e

/-! ## Where the blocks sit -/

theorem origin : (![0, 0] : Fin 2 → Nat) = fun _ => 0 := funext fun a => by fin_cases a <;> rfl

/-- The printed index maps over the grid: the batch block and the output block are block t along the columns; the
    parameter arrays are read whole. -/
theorem block_index : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem point_lt (t : Fin cfg0.N) : t.val < 512 := lt_of_lt_of_eq t.isLt N_0

/-- Column r of block t is column 4096 t + r of the array. -/
theorem col_lt (t : Fin cfg0.N) (r : Fin 4096) : t.val * 4096 + r.val < 2097152 := by
  have := point_lt t
  have := r.isLt
  omega

/-! ## A block of an array of each operand's shape, read at an entry -/

theorem emb_xt (t : Fin cfg0.N) (s : Fin 8) (r : Fin 4096) :
    ((cfg0.win 0).blk t).view.emb (ix2 s r) = ix2 s ⟨t.val * 4096 + r.val, col_lt t r⟩ := by
  obtain ⟨e0, e1, -⟩ := block_index t
  funext ax
  apply Fin.ext
  match ax with
  | ⟨0, _⟩ => show win0_0.index t (0 : Fin 2) * 8 + 1 * s.val = s.val; omega
  | ⟨1, _⟩ => show win0_0.index t (1 : Fin 2) * 4096 + 1 * r.val = t.val * 4096 + r.val; omega

theorem read_xt (A : S8x2097152.Idx → EReal) (t : Fin cfg0.N) (s : Fin 8) (r : Fin 4096) :
    ((cfg0.win 0).blk t).view.read (Elt Ideal) A (ix2 s r) = A (ix2 s ⟨t.val * 4096 + r.val, col_lt t r⟩) := by
  show A (((cfg0.win 0).blk t).view.emb (ix2 s r)) = _
  rw [emb_xt]

theorem emb_w1 (t : Fin cfg0.N) (h : Fin 56) (s : Fin 8) :
    ((cfg0.win 1).blk t).view.emb (ix2 h s) = ix2 h s := by
  obtain ⟨-, -, e0, e1, -⟩ := block_index t
  funext ax
  apply Fin.ext
  match ax with
  | ⟨0, _⟩ => show win0_1.index t (0 : Fin 2) * 56 + 1 * h.val = h.val; omega
  | ⟨1, _⟩ => show win0_1.index t (1 : Fin 2) * 8 + 1 * s.val = s.val; omega

theorem read_w1 (A : S56x8.Idx → EReal) (t : Fin cfg0.N) (h : Fin 56) (s : Fin 8) :
    ((cfg0.win 1).blk t).view.read (Elt Ideal) A (ix2 h s) = A (ix2 h s) := by
  show A (((cfg0.win 1).blk t).view.emb (ix2 h s)) = _
  rw [emb_w1]

theorem emb_b1 (t : Fin cfg0.N) (h : Fin 56) (z : Fin 1) :
    ((cfg0.win 2).blk t).view.emb (ix2 h z) = ix2 h z := by
  obtain ⟨-, -, -, -, e0, e1, -⟩ := block_index t
  funext ax
  apply Fin.ext
  match ax with
  | ⟨0, _⟩ => show win0_2.index t (0 : Fin 2) * 56 + 1 * h.val = h.val; omega
  | ⟨1, _⟩ => show win0_2.index t (1 : Fin 2) * 1 + 1 * z.val = z.val; omega

theorem read_b1 (A : S56x1.Idx → EReal) (t : Fin cfg0.N) (h : Fin 56) (z : Fin 1) :
    ((cfg0.win 2).blk t).view.read (Elt Ideal) A (ix2 h z) = A (ix2 h z) := by
  show A (((cfg0.win 2).blk t).view.emb (ix2 h z)) = _
  rw [emb_b1]

theorem emb_w2 (t : Fin cfg0.N) (a : Fin 8) (h : Fin 56) :
    ((cfg0.win 3).blk t).view.emb (ix2 a h) = ix2 a h := by
  obtain ⟨-, -, -, -, -, -, e0, e1, -⟩ := block_index t
  funext ax
  apply Fin.ext
  match ax with
  | ⟨0, _⟩ => show win0_3.index t (0 : Fin 2) * 8 + 1 * a.val = a.val; omega
  | ⟨1, _⟩ => show win0_3.index t (1 : Fin 2) * 56 + 1 * h.val = h.val; omega

theorem read_w2 (A : S8x56.Idx → EReal) (t : Fin cfg0.N) (a : Fin 8) (h : Fin 56) :
    ((cfg0.win 3).blk t).view.read (Elt Ideal) A (ix2 a h) = A (ix2 a h) := by
  show A (((cfg0.win 3).blk t).view.emb (ix2 a h)) = _
  rw [emb_w2]

theorem emb_b2 (t : Fin cfg0.N) (a : Fin 8) (z : Fin 1) :
    ((cfg0.win 4).blk t).view.emb (ix2 a z) = ix2 a z := by
  obtain ⟨-, -, -, -, -, -, -, -, e0, e1, -⟩ := block_index t
  funext ax
  apply Fin.ext
  match ax with
  | ⟨0, _⟩ => show win0_4.index t (0 : Fin 2) * 8 + 1 * a.val = a.val; omega
  | ⟨1, _⟩ => show win0_4.index t (1 : Fin 2) * 1 + 1 * z.val = z.val; omega

theorem read_b2 (A : S8x1.Idx → EReal) (t : Fin cfg0.N) (a : Fin 8) (z : Fin 1) :
    ((cfg0.win 4).blk t).view.read (Elt Ideal) A (ix2 a z) = A (ix2 a z) := by
  show A (((cfg0.win 4).blk t).view.emb (ix2 a z)) = _
  rw [emb_b2]

/-! ## The five input blocks at an entry, in terms of the arrays the region finds -/

theorem blk_xt (c : Dev nD) (t : Fin cfg0.N) (s : Fin 8) (r : Fin 4096) :
    iblk m c 0 t (ix2 s r) = (V m c main_call0_v3 : S8x2097152.Idx → EReal) (ix2 s ⟨t.val * 4096 + r.val, col_lt t r⟩) :=
  read_xt (V m c main_call0_v3) t s r

theorem blk_w1 (c : Dev nD) (t : Fin cfg0.N) (h : Fin 56) (s : Fin 8) :
    iblk m c 1 t (ix2 h s) = (V m c main_v4 : S56x8.Idx → EReal) (ix2 h s) :=
  read_w1 (V m c main_v4) t h s

theorem blk_b1 (c : Dev nD) (t : Fin cfg0.N) (h : Fin 56) (z : Fin 1) :
    iblk m c 2 t (ix2 h z) = (V m c main_v9 : S56x1.Idx → EReal) (ix2 h z) :=
  read_b1 (V m c main_v9) t h z

theorem blk_w2 (c : Dev nD) (t : Fin cfg0.N) (a : Fin 8) (h : Fin 56) :
    iblk m c 3 t (ix2 a h) = (V m c main_v14 : S8x56.Idx → EReal) (ix2 a h) :=
  read_w2 (V m c main_v14) t a h

theorem blk_b2 (c : Dev nD) (t : Fin cfg0.N) (a : Fin 8) (z : Fin 1) :
    iblk m c 4 t (ix2 a z) = (V m c main_v19 : S8x1.Idx → EReal) (ix2 a z) :=
  read_b2 (V m c main_v19) t a z

/-! ## What a point writes back -/

/-- Point t writes back block t of `rawT`. -/
theorem flushed_eq (c : Dev nD) (t : Fin cfg0.N) :
    (dats m 0 c).flushed 5 t = ((cfg0.win 5).blk t).view.read (Elt Ideal) (rawT m c) := by
  show (cfg0.win 5).cut (grid0.coords t) ((dats m 0 c).after 5 t) = _
  rw [after0_5]
  unfold out0_5
  rw [View.canon_unit_zero origin]
  simp only [View.ld_unit_zero (S := S8x4096) origin, View.ld_unit_zero (S := S56x8) origin,
    View.ld_unit_zero (S := S56x1) origin, View.ld_unit_zero (S := S8x56) origin, View.ld_unit_zero (S := S8x1) origin]
  funext j
  obtain ⟨a, r, rfl⟩ : ∃ (a : Fin 8) (r : Fin 4096), j = ix2 a r := ⟨j 0, j 1, eq_ix2 j⟩
  have e : ((cfg0.win 5).blk t).view.emb (ix2 a r) = ix2 a ⟨t.val * 4096 + r.val, col_lt t r⟩ := by
    obtain ⟨-, -, -, -, -, -, -, -, -, -, e0, e1⟩ := block_index t
    funext ax
    apply Fin.ext
    match ax with
    | ⟨0, _⟩ => show win0_5.index t (0 : Fin 2) * 8 + 1 * a.val = a.val; omega
    | ⟨1, _⟩ => show win0_5.index t (1 : Fin 2) * 4096 + 1 * r.val = t.val * 4096 + r.val; omega
  show k0_pay1 (iblk m c 0 t) (iblk m c 1 t) (iblk m c 2 t) (iblk m c 3 t) (iblk m c 4 t) (ix2 a r)
    = rawT m c (((cfg0.win 5).blk t).view.emb (ix2 a r))
  rw [e]
  refine (stored_apply _ _ _ _ _ a r).trans ?_
  unfold rawT
  rw [wideScores_apply]
  simp only [blk_xt m c t, blk_w1 m c t, blk_b1 m c t, blk_w2 m c t, blk_b2 m c t]

/-! ## The array after the run -/

theorem mem_blk (t : Fin cfg0.N) (i : S8x2097152.Idx) :
    i ∈ ((cfg0.win 5).blk t).view.set ↔ ∀ a : Fin 2, win0_5.index t a * S8x4096.size a ≤ (i a).val
      ∧ (i a).val < win0_5.index t a * S8x4096.size a + S8x4096.size a := by
  show i ∈ ((View.whole main_call0_v4).slice (win0_5.rect t)).set ↔ _
  rw [View.set_slice_whole, Rect.mem_set_unit]
  exact Iff.rfl

/-- Every entry of the output lies in some point's block: column b in block b / 4096. -/
theorem cover (i : S8x2097152.Idx) :
    ∃ t : Fin cfg0.N, (cfg0.win 5).flush t = true ∧ i ∈ ((cfg0.win 5).blk t).view.set := by
  have hi0 := idx2_lt0 i
  have hi1 := idx2_lt1 i
  have hN : cfg0.N = 512 := N_0
  have hq : (i 1).val / 4096 < cfg0.N := by rw [hN]; omega
  obtain ⟨-, -, -, -, -, -, -, -, -, -, e0, e1⟩ := block_index ⟨(i 1).val / 4096, hq⟩
  have e1' : win0_5.index ⟨(i 1).val / 4096, hq⟩ (1 : Fin 2) = (i 1).val / 4096 := e1
  refine ⟨⟨(i 1).val / 4096, hq⟩, flush0_5 _, ?_⟩
  rw [mem_blk]
  intro a
  match a with
  | ⟨0, _⟩ =>
    show win0_5.index ⟨(i 1).val / 4096, hq⟩ (0 : Fin 2) * 8 ≤ (i 0).val
      ∧ (i 0).val < win0_5.index ⟨(i 1).val / 4096, hq⟩ (0 : Fin 2) * 8 + 8
    omega
  | ⟨1, _⟩ =>
    show win0_5.index ⟨(i 1).val / 4096, hq⟩ (1 : Fin 2) * 4096 ≤ (i 1).val
      ∧ (i 1).val < win0_5.index ⟨(i 1).val / 4096, hq⟩ (1 : Fin 2) * 4096 + 4096
    omega

/-- The region's output array after the run. -/
theorem final (c : Dev nD) : (dats m 0 c).arrAt 5 cfg0.N = rawT m c :=
  (dats m 0 c).arrAt_eq_of_cover 5 (rawT m c) (fun t _ => flushed_eq m c t) cover

/-! ## The two action rows of the output -/

/-- Row a < 2 of the region's output is action a's score. -/
theorem raw_row (c : Dev nD) (a : Fin 2) (b : Fin 2097152) (a' : Fin 8) (ha : a'.val = a.val) :
    rawT m c (ix2 a' b)
      = score (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b a := by
  have h8 : a.val < 8 := lt_trans a.isLt (by decide)
  obtain rfl : a' = ⟨a.val, h8⟩ := Fin.ext ha
  exact wideScores_row _ _ _ _ _ _ _ _ _ _ a b (w2p_apply m c a) (b2p_apply m c a 0) (fun h => b1p_apply m c h 0)
    (w1p_apply m c) (fun s => xt_apply m c s b)

/-! ## After the region: the slice and the transpose -/

theorem result_eq (c : Dev nD) :
    (Pipeline.afterTail₀ cfgs (dats m) 0 (V0 m) [hostOps1 (F := Ideal)] c main_v20 : S2097152x2.Idx → EReal)
      = policy (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Pipeline.afterTail₀
  show StableHlo.after (hostOps1 (F := Ideal)) _ (Proc.devRef .tc main_v20) = _
  after_results
  show transpose S2097152x2 [1, 0]
    (extractStridedSlice S2x2097152 ![0, 0]
      (Pipeline.withArrays (cfgs 0).spec c (V0 m c) (fun w => (dats m 0 c).arrAt w (cfgs 0).N) (Proc.devRef .tc main_call0_v4))
      slices_S8x2097152_S2x2097152_0_0)
    transposes_S2x2097152_S2097152x2_1_0 = _
  rw [show Pipeline.withArrays (cfgs 0).spec c (V0 m c) (fun w => (dats m 0 c).arrAt w (cfgs 0).N)
      (Proc.devRef .tc main_call0_v4) = rawT m c from
    (Pipeline.withArrays_arr spec0 launch0.win.arr_inj c _ _ 5).trans (final m c)]
  funext i
  obtain ⟨b, a, rfl⟩ : ∃ (b : Fin 2097152) (a : Fin 2), i = ix2 b a := ⟨i 0, i 1, eq_ix2 i⟩
  rw [transpose_ix2_apply, slice2_axis0_eq]
  exact raw_row m c a b _ (Nat.zero_add _)

/-! ## The run -/

/-- Every weakly fair execution of the reference's program terminates with the result array at the policy network of
    the argument arrays, and the argument arrays unchanged. -/
theorem run : θ_run defs (onTc (τ := τ) (main (F := Ideal))) ⟨m, fun _ => 0, ρ⟩ fun r => ∀ c : Dev nD,
      r.2.mem ((c.tc : Thread nD τ).loc main_v20)
        = policy (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Val

end
-- ==== Proof.lean ====
/-
  The policy network y = tanh (x · W1ᵀ + b1) · W2ᵀ + b2 over a batch of 2097152 states, computed two ways, and why the
  two programs agree on the extended reals.

  Both programs keep the batch along the columns: they transpose x, pad the parameters with zeros from 50 to 56
  hidden units, run one region that computes W2p · tanh (W1p · xt + b1p) + b2p a block of columns at a time, and
  transpose the region's output back. They differ in the tiling (64 blocks of 32768 columns against 512 blocks of
  4096) and in that the second program also pads the state axis from 4 to 8 rows and the action axis from 2 to 8
  rows, cutting the extra action rows off after the region.

  Read entry by entry, each program's result at (b, a) is
      ∑ h < 56, W2 (a, h) · tanh (∑ s < 4, W1 (h, s) · x (b, s) + B1 h) + b2 a
  with W1, B1, W2 the parameters padded by zeros (`Cert.PolicySpec.policy`): for the first program directly, for the
  second after dropping the four state terms whose weight is the padding zero (0 · y = 0 and y + 0 = y hold for every
  extended real y, so no entry needs to be finite). The tilings do not matter: each region's blocks tile its output
  array, and each block is the restriction of one whole-array function.

  The three frames are the generated ones; the ideal pass rewrote nothing, so `preserves` is `True`.
-/
import proofs.«145514_g2000301263756867_pallasbulk_1232_3_alg».proof.Defs
import proofs.«145514_g2000301263756867_pallasbulk_1232_3_alg».proof.Proof.Gen.Kernel
import proofs.«145514_g2000301263756867_pallasbulk_1232_3_alg».proof.Proof.Gen.Kernel.Frame
import proofs.«145514_g2000301263756867_pallasbulk_1232_3_alg».proof.Proof.Gen.KernelIdeal
import proofs.«145514_g2000301263756867_pallasbulk_1232_3_alg».proof.Proof.Gen.KernelIdeal.Frame
import proofs.«145514_g2000301263756867_pallasbulk_1232_3_alg».proof.Proof.Gen.ReferenceIdeal
import proofs.«145514_g2000301263756867_pallasbulk_1232_3_alg».proof.Proof.Gen.ReferenceIdeal.Frame
import proofs.«145514_g2000301263756867_pallasbulk_1232_3_alg».proof.Proof.Gen.Pre_finite_inputs
import proofs.«145514_g2000301263756867_pallasbulk_1232_3_alg».proof.Proof.KernelValue
import proofs.«145514_g2000301263756867_pallasbulk_1232_3_alg».proof.Proof.ReferenceValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => Cert.ReferenceIdeal.Gen.frame m ρ

theorem preserves : Cert.preserves_Kernel_KernelIdeal := trivial

/-- From memories that agree on the five arguments both programs end with the result array at the policy network of
    those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Val.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
